-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x4 : Shape := ⟨2, ![524288, 4]⟩
abbrev S524288 : Shape := ⟨1, ![524288]⟩
abbrev S4x256 : Shape := ⟨2, ![4, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S256x2 : Shape := ⟨2, ![256, 2]⟩
abbrev S2 : Shape := ⟨1, ![2]⟩
abbrev S_ : Shape := ⟨0, ![]⟩

class Facts : Prop where
  bcast_S_S524288x4 : S_.BroadcastsInDim S524288x4 (![] : Fin 0 → Fin S524288x4.rank)
  reducesTo_S524288x4_S_d0_1 : S524288x4.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S256x2 .f32) (main_arg13 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg12
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S64x256 .f32) (main_arg9 : FVec F S256 .f32) (main_arg10 : FVec F S256x256 .f32) (main_arg11 : FVec F S256 .f32) (main_arg12 : FVec F S256x2 .f32) (main_arg13 : FVec F S2 .f32) (main_v33 : IVec S_ 1) : IVec S_ 1 :=
  let main_v34 : FVec F S64x256 .f32 := Host.absf main_arg8
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x64 .f32) (main_arg7 : FVec F S64 .f32) (main_arg8 : FVec F S64x256 .f32) (main_arg9 : FVec F S256 .f32) (main_arg10 : FVec F S256x256 .f32) (main_arg11 : FVec F S256 .f32) (main_arg12 : FVec F S256x2 .f32) (main_arg13 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S524288x4 .f32) (main_arg1 : IVec S524288 32) (main_arg2 : FVec F S4x256 .f32) (main_arg3 : FVec F S256 .f32) (main_arg4 : FVec F S256x256 .f32) (main_arg5 : FVec F S256 .f32) (main_arg6 : FVec F S256x64 .f32) (main_arg7 : FVec F S64 .f32) (main_arg8 : FVec F S64x256 .f32) (main_arg9 : FVec F S256 .f32) (main_arg10 : FVec F S256x256 .f32) (main_arg11 : FVec F S256 .f32) (main_arg12 : FVec F S256x2 .f32) (main_arg13 : FVec F S2 .f32) : IVec S_ 1 :=
  let main_v0 : FVec F S524288x4 .f32 := Host.absf main_arg0
  let main_cst : FVec F S_ .f32 := constant S_ .f32 0x7F800000#32
  let main_v1 : FVec F S524288x4 .f32 := broadcastInDim S524288x4 ![] bcast_S_S524288x4 main_cst
  let main_v2 : IVec S524288x4 1 := cmpf .olt main_v0 main_v1
  let main_c : IVec S_ 1 := constantI S_ 1 1#1
  let main_v3 : IVec S_ 1 := (fun x v => Host.reduce IntOp.andi x v reducesTo_S524288x4_S_d0_1 h_S_) main_v2 main_c
  let main_v4 : FVec F S4x256 .f32 := Host.absf main_arg2
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S524288x4 : Shape := ⟨2, ![524288, 4]⟩
abbrev S524288 : Shape := ⟨1, ![524288]⟩
abbrev S4x256 : Shape := ⟨2, ![4, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S256x2 : Shape := ⟨2, ![256, 2]⟩
abbrev S2 : Shape := ⟨1, ![2]⟩
abbrev S524288x64 : Shape := ⟨2, ![524288, 64]⟩
abbrev S524288x2 : Shape := ⟨2, ![524288, 2]⟩
abbrev S2048x4 : Shape := ⟨2, ![2048, 4]⟩
abbrev S2048x64 : Shape := ⟨2, ![2048, 64]⟩
abbrev S2048x2 : Shape := ⟨2, ![2048, 2]⟩
abbrev S2048 : Shape := ⟨1, ![2048]⟩
abbrev S2048x1 : Shape := ⟨2, ![2048, 1]⟩
abbrev S2048x256 : Shape := ⟨2, ![2048, 256]⟩
abbrev S1x256 : Shape := ⟨2, ![1, 256]⟩
abbrev S1x64 : Shape := ⟨2, ![1, 64]⟩
abbrev S524288x66 : Shape := ⟨2, ![524288, 66]⟩
abbrev S_ : Shape := ⟨0, ![]⟩
abbrev S16384x66 : Shape := ⟨2, ![16384, 66]⟩
abbrev S524288x1 : Shape := ⟨2, ![524288, 1]⟩
abbrev S16384x64 : Shape := ⟨2, ![16384, 64]⟩
abbrev S16384x2 : Shape := ⟨2, ![16384, 2]⟩
abbrev S1x2 : Shape := ⟨2, ![1, 2]⟩

abbrev nBuf : Space → Nat
  | .hbm => 24
  | .vmem => 24
  | .smem => 0
  | _ => 0

abbrev bufTy : (tb : Table) → Fin (tcTables nBuf tb) → BufTy
  | .hbm, ⟨0, _⟩ => ⟨S524288x4, .f32⟩
  | .hbm, ⟨1, _⟩ => ⟨S524288, .i32⟩
  | .hbm, ⟨2, _⟩ => ⟨S4x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S64x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S524288x64, .f32⟩
  | .hbm, ⟨15, _⟩ => ⟨S524288x2, .f32⟩
  | .hbm, ⟨16, _⟩ => ⟨S524288x66, .f32⟩
  | .hbm, ⟨17, _⟩ => ⟨S_, .f32⟩
  | .hbm, ⟨18, _⟩ => ⟨S16384x66, .f32⟩
  | .hbm, ⟨19, _⟩ => ⟨S524288x1, .i32⟩
  | .hbm, ⟨20, _⟩ => ⟨S16384x66, .f32⟩
  | .hbm, ⟨21, _⟩ => ⟨S16384x64, .f32⟩
  | .hbm, ⟨22, _⟩ => ⟨S16384x2, .f32⟩
  | .hbm, ⟨23, _⟩ => ⟨S16384x2, .f32⟩
  | .local _ .vmem, ⟨0, _⟩ => ⟨S2048x4, .f32⟩
  | .local _ .vmem, ⟨1, _⟩ => ⟨S2048x4, .f32⟩
  | .local _ .vmem, ⟨2, _⟩ => ⟨S4x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x64, .f32⟩
  | .local _ .vmem, ⟨7, _⟩ => ⟨S64, .f32⟩
  | .local _ .vmem, ⟨8, _⟩ => ⟨S2048x64, .f32⟩
  | .local _ .vmem, ⟨9, _⟩ => ⟨S2048x64, .f32⟩
  | .local _ .vmem, ⟨10, _⟩ => ⟨S2048x2, .f32⟩
  | .local _ .vmem, ⟨11, _⟩ => ⟨S2048x2, .f32⟩
  | .local _ .vmem, ⟨12, _⟩ => ⟨S2048x64, .f32⟩
  | .local _ .vmem, ⟨13, _⟩ => ⟨S2048x64, .f32⟩
  | .local _ .vmem, ⟨14, _⟩ => ⟨S64x256, .f32⟩
  | .local _ .vmem, ⟨15, _⟩ => ⟨S256, .f32⟩
  | .local _ .vmem, ⟨16, _⟩ => ⟨S256x256, .f32⟩
  | .local _ .vmem, ⟨17, _⟩ => ⟨S256, .f32⟩
  | .local _ .vmem, ⟨18, _⟩ => ⟨S256x2, .f32⟩
  | .local _ .vmem, ⟨19, _⟩ => ⟨S2, .f32⟩
  | .local _ .vmem, ⟨20, _⟩ => ⟨S2048x2, .f32⟩
  | .local _ .vmem, ⟨21, _⟩ => ⟨S2048x2, .f32⟩
  | .local _ .vmem, ⟨22, _⟩ => ⟨S2048x2, .f32⟩
  | .local _ .vmem, ⟨23, _⟩ => ⟨S2048x2, .f32⟩
  | _, _ => ⟨S524288x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S2048x4_S2048x4_0_0 : ∀ a, (![0, 0] : Fin 2 → Nat) a + S2048x4.size a ≤ S2048x4.size a
  h_S2048x4 : 0 < S2048x4.numel
  slices_S2048x4_o0_0_S2048x2 : S2048x4.Slices ![0, 0] S2048x2
  reduces_S2048x2_S2048 : S2048x2.Reduces [1] S2048
  shapeCasts_S2048_S2048x1 : S2048.ShapeCasts S2048x1
  broadcasts_S2048x1_S2048x2 : S2048x1.Broadcasts S2048x2
  inb_S2048x2_S2048x2_0_0 : ∀ a, (![0, 0] : Fin 2 → Nat) a + S2048x2.size a ≤ S2048x2.size a
  h_S2048x2 : 0 < S2048x2.numel
  bitsLt_bf16_f32 : FTy.bits .bf16 < FTy.bits .f32
  inb_S4x256_S4x256_0_0 : ∀ a, (![0, 0] : Fin 2 → Nat) a + S4x256.size a ≤ S4x256.size a
  h_S4x256 : 0 < S4x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  concatenates_S524288x64_S524288x2_S524288x66_d1 : Shape.Concatenates [S524288x64, S524288x2] S524288x66 1
  bcast_S_S16384x66 : S_.BroadcastsInDim S16384x66 (![] : Fin 0 → Fin S16384x66.rank)
  bcast_S524288_S524288x1_0 : S524288.BroadcastsInDim S524288x1 (![0] : Fin 1 → Fin S524288x1.rank)
  slices_S16384x66_S16384x64_0_0 : S16384x66.Slices ![0, 0] S16384x64
  slices_S16384x66_S16384x2_0_64 : S16384x66.Slices ![0, 64] S16384x2
  shapeCasts_S2048x64_S2048x64 : S2048x64.ShapeCasts S2048x64
  inb_S64x256_S64x256_0_0 : ∀ a, (![0, 0] : Fin 2 → Nat) a + S64x256.size a ≤ S64x256.size a
  h_S64x256 : 0 < S64x256.numel
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  shapeCasts_S2048x2_S2048x2 : S2048x2.ShapeCasts S2048x2
  dot_S2048x4_S4x256_S2048x256_1_0_0_1_n_n_wf : DotDims.WF S2048x4 S4x256 S2048x256 [1] [0] [0] [1] [] []
  dot_S2048x256_S256x256_S2048x256_1_0_0_1_n_n_wf : DotDims.WF S2048x256 S256x256 S2048x256 [1] [0] [0] [1] [] []
  dot_S2048x256_S256x64_S2048x64_1_0_0_1_n_n_wf : DotDims.WF S2048x256 S256x64 S2048x64 [1] [0] [0] [1] [] []
  scatter_S16384x66_S524288x1_S524288x66_1_0_0_1_wf : ScatterDims.WF S16384x66 S524288x1 S524288x66 [1] [0] [0] 1
  dot_S2048x64_S64x256_S2048x256_1_0_0_1_n_n_wf : DotDims.WF S2048x64 S64x256 S2048x256 [1] [0] [0] [1] [] []
  dot_S2048x256_S256x2_S2048x2_1_0_0_1_n_n_wf : DotDims.WF S2048x256 S256x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S524288x4.size a
  hwx0_0 : ∀ i : grid0.Coords, EltTy.bits .f32 = 32 ∨ (Rect.block (s := S524288x4) S2048x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x256.size a
  hwx0_1 : ∀ i : grid0.Coords, EltTy.bits .f32 = 32 ∨ (Rect.block (s := S4x256) S4x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S524288x64.size a
  hwx0_7 : ∀ i : grid0.Coords, EltTy.bits .f32 = 32 ∨ (Rect.block (s := S524288x64) S2048x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x2.size a ≤ S524288x2.size a
  hwx0_8 : ∀ i : grid0.Coords, EltTy.bits .f32 = 32 ∨ (Rect.block (s := S524288x2) S2048x2.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x2.size a ≤ S256x2.size a
  hwx1_5 : ∀ i : grid1.Coords, EltTy.bits .f32 = 32 ∨ (Rect.block (s := S256x2) S256x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2.size a ≤ S2.size a
  hwx1_6 : ∀ i : grid1.Coords, EltTy.bits .f32 = 32 ∨ (Rect.block (s := S2) S2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x2.size a ≤ S16384x2.size a
  hwx1_7 : ∀ i : grid1.Coords, EltTy.bits .f32 = 32 ∨ (Rect.block (s := S16384x2) S2048x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x2.size a ≤ S16384x2.size a
  hwx1_8 : ∀ i : grid1.Coords, EltTy.bits .f32 = 32 ∨ (Rect.block (s := S16384x2) S2048x2.size (cc1_transform_8 i) (hinb1_8 i)).WholeWords (EltTy.packing .f32)

variable [Facts₀]

def dot_S2048x4_S4x256_S2048x256_1_0_0_1_n_n : DotDims S2048x4 S4x256 S2048x256 where
  lhsContracting := [1]
  rhsContracting := [0]
  lhsNonContracting := [0]
  rhsNonContracting := [1]
  lhsBatch := []
  rhsBatch := []
  wf := dot_S2048x4_S4x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def scatter_S16384x66_S524288x1_S524288x66_1_0_0_1 : ScatterDims S16384x66 S524288x1 S524288x66 where
  updateWindowDims := [1]
  insertedWindowDims := [0]
  scatterDimsToOperandDims := [0]
  indexVectorDim := 1
  wf := scatter_S16384x66_S524288x1_S524288x66_1_0_0_1_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S2048x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S2048x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v5) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S2048x2.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7) S2048x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S524288x4 : Shape := ⟨2, ![524288, 4]⟩
abbrev S524288 : Shape := ⟨1, ![524288]⟩
abbrev S4x256 : Shape := ⟨2, ![4, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x256 : Shape := ⟨2, ![64, 256]⟩
abbrev S256x2 : Shape := ⟨2, ![256, 2]⟩
abbrev S2 : Shape := ⟨1, ![2]⟩
abbrev S524288x256 : Shape := ⟨2, ![524288, 256]⟩
abbrev S1x256 : Shape := ⟨2, ![1, 256]⟩
abbrev S_ : Shape := ⟨0, ![]⟩
abbrev S524288x64 : Shape := ⟨2, ![524288, 64]⟩
abbrev S1x64 : Shape := ⟨2, ![1, 64]⟩
abbrev S16384x64 : Shape := ⟨2, ![16384, 64]⟩
abbrev S524288x1 : Shape := ⟨2, ![524288, 1]⟩
abbrev S16384x256 : Shape := ⟨2, ![16384, 256]⟩
abbrev S16384x2 : Shape := ⟨2, ![16384, 2]⟩
abbrev S1x2 : Shape := ⟨2, ![1, 2]⟩
abbrev S524288x2 : Shape := ⟨2, ![524288, 2]⟩

abbrev nBuf : Space → Nat
  | .hbm => 73
  | .vmem => 0
  | .smem => 0
  | _ => 0

abbrev bufTy : (tb : Table) → Fin (tcTables nBuf tb) → BufTy
  | .hbm, ⟨0, _⟩ => ⟨S524288x4, .f32⟩
  | .hbm, ⟨1, _⟩ => ⟨S524288, .i32⟩
  | .hbm, ⟨2, _⟩ => ⟨S4x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S64x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S524288x256, .f32⟩
  | .hbm, ⟨15, _⟩ => ⟨S1x256, .f32⟩
  | .hbm, ⟨16, _⟩ => ⟨S524288x256, .f32⟩
  | .hbm, ⟨17, _⟩ => ⟨S524288x256, .f32⟩
  | .hbm, ⟨18, _⟩ => ⟨S_, .f32⟩
  | .hbm, ⟨19, _⟩ => ⟨S524288x256, .f32⟩
  | .hbm, ⟨20, _⟩ => ⟨S524288x256, .f32⟩
  | .hbm, ⟨21, _⟩ => ⟨S524288x256, .f32⟩
  | .hbm, ⟨22, _⟩ => ⟨S1x256, .f32⟩
  | .hbm, ⟨23, _⟩ => ⟨S524288x256, .f32⟩
  | .hbm, ⟨24, _⟩ => ⟨S524288x256, .f32⟩
  | .hbm, ⟨25, _⟩ => ⟨S_, .f32⟩
  | .hbm, ⟨26, _⟩ => ⟨S524288x256, .f32⟩
  | .hbm, ⟨27, _⟩ => ⟨S524288x256, .f32⟩
  | .hbm, ⟨28, _⟩ => ⟨S524288x64, .f32⟩
  | .hbm, ⟨29, _⟩ => ⟨S1x64, .f32⟩
  | .hbm, ⟨30, _⟩ => ⟨S524288x64, .f32⟩
  | .hbm, ⟨31, _⟩ => ⟨S524288x64, .f32⟩
  | .hbm, ⟨32, _⟩ => ⟨S_, .f32⟩
  | .hbm, ⟨33, _⟩ => ⟨S16384x64, .f32⟩
  | .hbm, ⟨34, _⟩ => ⟨S524288x1, .i32⟩
  | .hbm, ⟨35, _⟩ => ⟨S16384x64, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S1x256, .f32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S16384x256, .f32⟩
  | .hbm, ⟨49, _⟩ => ⟨S16384x256, .f32⟩
  | .hbm, ⟨50, _⟩ => ⟨S16384x2, .f32⟩
  | .hbm, ⟨51, _⟩ => ⟨S1x2, .f32⟩
  | .hbm, ⟨52, _⟩ => ⟨S16384x2, .f32⟩
  | .hbm, ⟨53, _⟩ => ⟨S16384x2, .f32⟩
  | .hbm, ⟨54, _⟩ => ⟨S524288x2, .f32⟩
  | .hbm, ⟨55, _⟩ => ⟨S524288x2, .f32⟩
  | .hbm, ⟨56, _⟩ => ⟨S_, .f32⟩
  | .hbm, ⟨57, _⟩ => ⟨S524288, .f32⟩
  | .hbm, ⟨58, _⟩ => ⟨S524288x1, .f32⟩
  | .hbm, ⟨59, _⟩ => ⟨S524288x1, .f32⟩
  | .hbm, ⟨60, _⟩ => ⟨S524288x2, .f32⟩
  | .hbm, ⟨61, _⟩ => ⟨S524288x2, .f32⟩
  | .hbm, ⟨62, _⟩ => ⟨S524288x2, .f32⟩
  | .hbm, ⟨63, _⟩ => ⟨S_, .f32⟩
  | .hbm, ⟨64, _⟩ => ⟨S524288x1, .f32⟩
  | .hbm, ⟨65, _⟩ => ⟨S524288x1, .f32⟩
  | .hbm, ⟨66, _⟩ => ⟨S524288x2, .f32⟩
  | .hbm, ⟨67, _⟩ => ⟨S524288x2, .f32⟩
  | .hbm, ⟨68, _⟩ => ⟨S_, .f32⟩
  | .hbm, ⟨69, _⟩ => ⟨S16384x2, .f32⟩
  | .hbm, ⟨70, _⟩ => ⟨S524288x1, .i32⟩
  | .hbm, ⟨71, _⟩ => ⟨S16384x2, .f32⟩
  | .hbm, ⟨72, _⟩ => ⟨S16384x2, .f32⟩
  | _, _ => ⟨S524288x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call2_cst : Ref sig .tc := ⟨.hbm, 40, rfl⟩
abbrev main_call2_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call3_cst : Ref sig .tc := ⟨.hbm, 47, rfl⟩
abbrev main_call3_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call4_v0 : Ref sig .tc := ⟨.hbm, 55, rfl⟩
abbrev main_call4_cst : Ref sig .tc := ⟨.hbm, 56, rfl⟩
abbrev main_call4_v1 : Ref sig .tc := ⟨.hbm, 57, rfl⟩
abbrev main_call4_v2 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_1 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S16384x64 : S_.BroadcastsInDim S16384x64 (![] : Fin 0 → Fin S16384x64.rank)
  bcast_S524288_S524288x1_0 : S524288.BroadcastsInDim S524288x1 (![0] : Fin 1 → Fin S524288x1.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  slices_S524288x4_S524288x2_0_0 : S524288x4.Slices ![0, 0] S524288x2
  reducesTo_S524288x2_S524288_d1 : S524288x2.ReducesTo [1] S524288
  h_S_ : 0 < S_.numel
  bcast_S524288x1_S524288x2_0_1 : S524288x1.BroadcastsInDim S524288x2 (![0, 1] : Fin 2 → Fin S524288x2.rank)
  bcast_S_S524288x1 : S_.BroadcastsInDim S524288x1 (![] : Fin 0 → Fin S524288x1.rank)
  bcast_S_S16384x2 : S_.BroadcastsInDim S16384x2 (![] : Fin 0 → Fin S16384x2.rank)
  dot_S524288x4_S4x256_S524288x256_1_0_0_1_n_n_wf : DotDims.WF S524288x4 S4x256 S524288x256 [1] [0] [0] [1] [] []
  dot_S524288x256_S256x256_S524288x256_1_0_0_1_n_n_wf : DotDims.WF S524288x256 S256x256 S524288x256 [1] [0] [0] [1] [] []
  dot_S524288x256_S256x64_S524288x64_1_0_0_1_n_n_wf : DotDims.WF S524288x256 S256x64 S524288x64 [1] [0] [0] [1] [] []
  scatter_S16384x64_S524288x1_S524288x64_1_0_0_1_wf : ScatterDims.WF S16384x64 S524288x1 S524288x64 [1] [0] [0] 1
  dot_S16384x64_S64x256_S16384x256_1_0_0_1_n_n_wf : DotDims.WF S16384x64 S64x256 S16384x256 [1] [0] [0] [1] [] []
  dot_S16384x256_S256x256_S16384x256_1_0_0_1_n_n_wf : DotDims.WF S16384x256 S256x256 S16384x256 [1] [0] [0] [1] [] []
  dot_S16384x256_S256x2_S16384x2_1_0_0_1_n_n_wf : DotDims.WF S16384x256 S256x2 S16384x2 [1] [0] [0] [1] [] []
  scatter_S16384x2_S524288x1_S524288x2_1_0_0_1_wf : ScatterDims.WF S16384x2 S524288x1 S524288x2 [1] [0] [0] 1

variable [Facts₀]

def dot_S524288x4_S4x256_S524288x256_1_0_0_1_n_n : DotDims S524288x4 S4x256 S524288x256 where
  lhsContracting := [1]
  rhsContracting := [0]
  lhsNonContracting := [0]
  rhsNonContracting := [1]
  lhsBatch := []
  rhsBatch := []
  wf := dot_S524288x4_S4x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x64_S524288x64_1_0_0_1_n_n : DotDims S524288x256 S256x64 S524288x64 where
  lhsContracting := [1]
  rhsContracting := [0]
  lhsNonContracting := [0]
  rhsNonContracting := [1]
  lhsBatch := []
  rhsBatch := []
  wf := dot_S524288x256_S256x64_S524288x64_1_0_0_1_n_n_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x256_S16384x256_1_0_0_1_n_n : DotDims S16384x64 S64x256 S16384x256 where
  lhsContracting := [1]
  rhsContracting := [0]
  lhsNonContracting := [0]
  rhsNonContracting := [1]
  lhsBatch := []
  rhsBatch := []
  wf := dot_S16384x64_S64x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x2_S16384x2_1_0_0_1_n_n : DotDims S16384x256 S256x2 S16384x2 where
  lhsContracting := [1]
  rhsContracting := [0]
  lhsNonContracting := [0]
  rhsNonContracting := [1]
  lhsBatch := []
  rhsBatch := []
  wf := dot_S16384x256_S256x2_S16384x2_1_0_0_1_n_n_wf
def scatter_S16384x2_S524288x1_S524288x2_1_0_0_1 : ScatterDims S16384x2 S524288x1 S524288x2 where
  updateWindowDims := [1]
  insertedWindowDims := [0]
  scatterDimsToOperandDims := [0]
  indexVectorDim := 1
  wf := scatter_S16384x2_S524288x1_S524288x2_1_0_0_1_wf

class Facts : Prop extends Facts₀ where

variable [Facts]
-- ==== Proof.RunValue.lean ====
/-
  The idealized kernel program's run with its result NAMED.

  The program is two kernel regions with a stretch of host operations between them.  Its buffer
  contents at the segment boundaries form a fold from the launch memory: region 0 leaves its arrays at
  what its write-backs leave, the host stretch applies its operations, region 1 again leaves its arrays
  at what its write-backs leave (`Gen.W3`).  The launch theorem over the program's segments ends with
  every unscoped buffer read at that last boundary; the frame keeps only the argument arrays of that
  reading, and here the result array is kept as well: after every weakly fair execution the result
  buffer holds `Gen.W3` at the result's reference, and the arguments are as launched.
-/
import proofs.«138461_j13503377178879_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds
    the last boundary's contents at the result's reference, and every argument array is as launched. -/
theorem run_value : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩)

end Cert.KernelIdeal.RunValue

end
-- ==== Proof.Spec.lean ====
/-
  The function both programs compute, one row at a time.

  An edge row `x : Fin 4 → EReal` goes through three dense layers (the first two followed by a
  maximum with zero) to a row of 64 numbers; its first two coordinates `p` give the barrier row
  `-(p / |p|) / (|p| - c)` with `|p| = sqrt (p₀² + p₁²)` and `c` the margin literal.  Rows of one
  segment are added; the sum of the 64-wide rows goes through three more dense layers to a row of two
  numbers, to which the segment's summed barrier row is added.

  Everything here is stated over the extended reals with plain `Fin`-indexed sums, so that a row of a
  block and the same row of the whole array are visibly the same function of that row.
-/
import Idealize.ShloMosaic.PureOps.Ideal
import Idealize.ShloMosaic.PureOps.Ideal.Laws
import Idealize.ShloMosaic.Lib.ValueIdx

noncomputable section

namespace Cert.DeepSet

open Idealize.ShloMosaic Idealize.ShloMosaic.ValueIdx

/-- The f32 zero word read as an extended real (kept as the word: both programs spell it so). -/
abbrev zeroW : EReal := Ideal.ofBits .f32 0x00000000#32
/-- The margin literal `0.18f` read as an extended real (the same word in both programs). -/
abbrev marginW : EReal := Ideal.ofBits .f32 0x3E3851EC#32

/-- One dense layer on one row: `(∑ k, x k * W (k, c)) + b c`. -/
def dense {K M : Nat} (x : Fin K → EReal) (W : (⟨2, ![K, M]⟩ : Shape).Idx → EReal)
    (b : (⟨1, ![M]⟩ : Shape).Idx → EReal) : Fin M → EReal :=
  fun c => (∑ k : Fin K, x k * W (ix2 k c)) + b (ix1 c)

/-- The maximum with the zero word, coordinate by coordinate. -/
def relu {M : Nat} (x : Fin M → EReal) : Fin M → EReal := fun c => max (x c) zeroW

/-- Three dense layers with a `relu` after the first two. -/
def mlp3 {K A B M : Nat} (x : Fin K → EReal)
    (W1 : (⟨2, ![K, A]⟩ : Shape).Idx → EReal) (b1 : (⟨1, ![A]⟩ : Shape).Idx → EReal)
    (W2 : (⟨2, ![A, B]⟩ : Shape).Idx → EReal) (b2 : (⟨1, ![B]⟩ : Shape).Idx → EReal)
    (W3 : (⟨2, ![B, M]⟩ : Shape).Idx → EReal) (b3 : (⟨1, ![M]⟩ : Shape).Idx → EReal) : Fin M → EReal :=
  dense (relu (dense (relu (dense x W1 b1)) W2 b2)) W3 b3

/-- The Euclidean length of a pair: the square root of the sum of the two squares. -/
def len2 (p : Fin 2 → EReal) : EReal := Ideal.sqrt (∑ k : Fin 2, p k * p k)

/-- The barrier row of a pair `p`: `-(p / |p|) / (|p| - c)`. -/
def barrier (p : Fin 2 → EReal) : Fin 2 → EReal :=
  fun q => Ideal.div (-(Ideal.div (p q) (len2 p))) (len2 p - marginW)

/-- The sum over the rows `e` whose segment word, read signed, is `n`, of column `q` of `u`. -/
def segSum {E C : Nat} (seg : Fin E → Int) (u : Fin E → Fin C → EReal) (n : Nat) (q : Fin C) : EReal :=
  ∑ e ∈ Finset.univ.filter (fun e : Fin E => seg e = (n : Int)), u e q

/-- Row `r` of a two-axis array, as a function of the column. -/
def row {R C : Nat} (A : (⟨2, ![R, C]⟩ : Shape).Idx → EReal) (r : Fin R) : Fin C → EReal := fun k => A (ix2 r k)

/-- The first two coordinates of a row of four. -/
def firstTwo (x : Fin 4 → EReal) : Fin 2 → EReal := fun k => x ⟨k.val, by omega⟩

/-- The two-axis array whose entry at `(r, c)` is `g r c`. -/
def ofRows {R C : Nat} (g : Fin R → Fin C → EReal) : (⟨2, ![R, C]⟩ : Shape).Idx → EReal :=
  fun i => g ⟨(i 0).val, idx2_lt0 i⟩ ⟨(i 1).val, idx2_lt1 i⟩

theorem ofRows_ix2 {R C : Nat} (g : Fin R → Fin C → EReal) (r : Fin R) (c : Fin C) : ofRows g (ix2 r c) = g r c := rfl

theorem ofRows_apply {R C : Nat} (g : Fin R → Fin C → EReal) (i : (⟨2, ![R, C]⟩ : Shape).Idx) :
    ofRows g i = g ⟨(i 0).val, idx2_lt0 i⟩ ⟨(i 1).val, idx2_lt1 i⟩ := rfl

/-- The segment word of row `e`, read signed. -/
def segOf {E : Nat} (seg : (⟨1, ![E]⟩ : Shape).Idx → BitVec 32) (e : Fin E) : Int := (seg (ix1 e)).toInt

/-- The 64-wide row every edge contributes: the edge layers on the edge's four features. -/
def edgeRows (ef : (⟨2, ![524288, 4]⟩ : Shape).Idx → EReal)
    (W1 : (⟨2, ![4, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 64]⟩ : Shape).Idx → EReal) (b3 : (⟨1, ![64]⟩ : Shape).Idx → EReal) :
    Fin 524288 → Fin 64 → EReal :=
  fun e => mlp3 (row ef e) W1 b1 W2 b2 W3 b3

/-- The barrier row every edge contributes: from the edge's first two features. -/
def barrierRows (ef : (⟨2, ![524288, 4]⟩ : Shape).Idx → EReal) : Fin 524288 → Fin 2 → EReal :=
  fun e => barrier (fun k : Fin 2 => ef (ix2 e ⟨k.val, by omega⟩))

/-- THE RESULT both programs compute, index by index: per segment `n`, the node layers on the zero word
    plus the sum of the segment's edge rows, plus the zero word plus the sum of the segment's barrier rows. -/
def result (ef : (⟨2, ![524288, 4]⟩ : Shape).Idx → EReal) (seg : (⟨1, ![524288]⟩ : Shape).Idx → BitVec 32)
    (Wp1 : (⟨2, ![4, 256]⟩ : Shape).Idx → EReal) (bp1 : (⟨1, ![256]⟩ : Shape).Idx → EReal)
    (Wp2 : (⟨2, ![256, 256]⟩ : Shape).Idx → EReal) (bp2 : (⟨1, ![256]⟩ : Shape).Idx → EReal)
    (Wp3 : (⟨2, ![256, 64]⟩ : Shape).Idx → EReal) (bp3 : (⟨1, ![64]⟩ : Shape).Idx → EReal)
    (Wr1 : (⟨2, ![64, 256]⟩ : Shape).Idx → EReal) (br1 : (⟨1, ![256]⟩ : Shape).Idx → EReal)
    (Wr2 : (⟨2, ![256, 256]⟩ : Shape).Idx → EReal) (br2 : (⟨1, ![256]⟩ : Shape).Idx → EReal)
    (Wr3 : (⟨2, ![256, 2]⟩ : Shape).Idx → EReal) (br3 : (⟨1, ![2]⟩ : Shape).Idx → EReal) :
    (⟨2, ![16384, 2]⟩ : Shape).Idx → EReal :=
  ofRows fun n q =>
    mlp3 (fun j : Fin 64 => zeroW + segSum (segOf seg) (edgeRows ef Wp1 bp1 Wp2 bp2 Wp3 bp3) n.val j) Wr1 br1 Wr2 br2 Wr3 br3 q
      + (zeroW + segSum (segOf seg) (barrierRows ef) n.val q)

end Cert.DeepSet

end
-- ==== Proof.KernelRows.lean ====
/-
  The kernel bodies' payloads, read at one index, are the row functions of the specification.

  Each payload is one pure term over the blocks a kernel body loads. Read at `(r, c)` it depends on row `r` of
  the edge (or node) block alone: a matrix product into the zero accumulator is the sum over the contracted
  coordinate, a bias viewed `[1, b]` and repeated over the rows is the bias at the column, the narrowing format
  change is the identity on the extended reals, and the maximum with the zero splat is the maximum with the zero
  word. So the 64-wide payload of the edge kernel is `mlp3` of the row, its 2-wide payload is `barrier` of the
  row's first two coordinates (the program writes `0 - p / |p|` where the specification writes `-(p / |p|)`), and
  the node kernel's payload is `mlp3` of the row plus the summed barrier row.
-/
import proofs.«138461_j13503377178879_1_alg».proof.Proof.Spec
import proofs.«138461_j13503377178879_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KernelRows

open Idealize.ShloMosaic Idealize.ShloMosaic.ValueIdx Cert.KernelIdeal Cert.KernelIdeal.Gen Cert.DeepSet

/-- A matrix product into the zero accumulator, read at row `r` and column `c`: the sum over the one
    contracted coordinate of the left operand's row times the right operand's column. -/
theorem matmul_row {M K N : Nat} {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (lhs : FVec Ideal ⟨2, ![M, K]⟩ φ₁) (rhs : FVec Ideal ⟨2, ![K, N]⟩ φ₂) (r : Fin M) (c : Fin N) :
    matmul D none lhs rhs (constant ⟨2, ![M, N]⟩ .f32 0x00000000#32) (ix2 r c)
      = ∑ k : Fin K, lhs (ix2 r k) * rhs (ix2 k c) := by
  obtain ⟨lc, rc, ln, rn, lb, rb, wf⟩ := D
  dsimp only at hlc hrc hln hrn hlb hrb
  subst hlc hrc hln hrn hlb hrb
  refine (Ideal.matmul_constant_zero_apply _ none lhs rhs (ix2 r c)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, _⟩ => rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, _⟩ => rfl)
  rw [el, er]

/-- A bias vector `[b]` viewed `[1, b]` and repeated over `a` rows reads, at `(p, c)`, the vector at `c`. -/
theorem rowBias_apply {α : Type} {a b : Nat} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

/-- A vector `[a]` viewed as the column `[a, 1]` reads, at `(i, u)`, the vector at `i`. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated over `b` columns reads, at `(p, c)`, the column at row `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a matrix from the zero accumulator reads, at `r`, the sum of row `r`. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext ax
  refine Fin.ext ?_
  match ax with
  | ⟨0, _⟩ => rfl
  | ⟨1, _⟩ => rfl

/-- One dense layer of the kernel at `(r, c)`: a matrix product into the zero accumulator, its right operand
    the weights after the narrowing format change (the identity on the extended reals), plus the bias vector
    repeated over the rows, is `dense` of the left operand's row `r`. -/
theorem dense_row {M K N : Nat} {φ₁ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (lhs : FVec Ideal ⟨2, ![M, K]⟩ φ₁) (W : FVec Ideal ⟨2, ![K, N]⟩ .f32) (b : FVec Ideal ⟨1, ![N]⟩ .f32)
    (hlt : FTy.bits .bf16 < FTy.bits .f32)
    (hc : (⟨1, ![N]⟩ : Shape).ShapeCasts ⟨2, ![1, N]⟩) (hb : (⟨2, ![1, N]⟩ : Shape).Broadcasts ⟨2, ![M, N]⟩)
    (x : Fin K → EReal) (r : Fin M) (hx : ∀ k, lhs (ix2 r k) = x k) (c : Fin N) :
    addf (matmul D none lhs (truncf .bf16 W hlt) (constant ⟨2, ![M, N]⟩ .f32 0x00000000#32))
        (broadcastTo ⟨2, ![M, N]⟩ (shapeCast ⟨2, ![1, N]⟩ b hc) hb) (ix2 r c)
      = dense x W b c := by
  rw [addf_apply, matmul_row D hlc hrc hln hrn hlb hrb lhs (truncf .bf16 W hlt) r c, rowBias_apply b hc hb r c]
  unfold dense
  exact congrArg (· + b (ix1 c)) (Finset.sum_congr rfl fun k _ => by rw [hx k, truncf_apply])

/-- A dense layer followed by the maximum with the zero splat and the narrowing format change, at `(r, c)`:
    `relu` of `dense` of the row. -/
theorem relu_dense_row {M K N : Nat} {φ₁ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (lhs : FVec Ideal ⟨2, ![M, K]⟩ φ₁) (W : FVec Ideal ⟨2, ![K, N]⟩ .f32) (b : FVec Ideal ⟨1, ![N]⟩ .f32)
    (hlt hlt' : FTy.bits .bf16 < FTy.bits .f32)
    (hc : (⟨1, ![N]⟩ : Shape).ShapeCasts ⟨2, ![1, N]⟩) (hb : (⟨2, ![1, N]⟩ : Shape).Broadcasts ⟨2, ![M, N]⟩)
    (x : Fin K → EReal) (r : Fin M) (hx : ∀ k, lhs (ix2 r k) = x k) (c : Fin N) :
    truncf .bf16 (maximumf (addf (matmul D none lhs (truncf .bf16 W hlt) (constant ⟨2, ![M, N]⟩ .f32 0x00000000#32))
        (broadcastTo ⟨2, ![M, N]⟩ (shapeCast ⟨2, ![1, N]⟩ b hc) hb))
        (broadcast ⟨2, ![M, N]⟩ (Scalar.ofBits (F := Ideal) .f32 0x00000000#32))) hlt' (ix2 r c)
      = relu (dense x W b) c := by
  rw [truncf_apply, maximumf_apply, dense_row D hlc hrc hln hrn hlb hrb lhs W b hlt hc hb x r hx c]
  rfl

/-- The edge kernel's second hidden layer at `(r, k)`: two dense layers with their maxima on row `r` of the
    edge block. -/
theorem hidden_pay (x0 : Vec Ideal S2048x4 .f32) (x1 : Vec Ideal S4x256 .f32) (x2 : Vec Ideal S256 .f32)
    (x3 : Vec Ideal S256x256 .f32) (x4 : Vec Ideal S256 .f32) (r : Fin 2048) (k : Fin 256) :
    k0_pay4 (F := Ideal) x0 x1 x2 x3 x4 (ix2 r k)
      = relu (dense (relu (dense (fun k : Fin 4 => x0 (ix2 r k)) x1 x2)) x3 x4) k :=
  relu_dense_row dot_S2048x256_S256x256_S2048x256_1_0_0_1_n_n rfl rfl rfl rfl rfl rfl _ x3 x4 _ _ _ _ _ r
    (fun k' => relu_dense_row dot_S2048x4_S4x256_S2048x256_1_0_0_1_n_n rfl rfl rfl rfl rfl rfl
      (truncf .bf16 x0 bitsLt_bf16_f32) x1 x2 _ _ _ _ _ r (fun _ => rfl) k') k

/-- The edge kernel's 64-wide payload at `(r, j)`: the three dense layers on row `r` of the edge block. -/
theorem edge_pay (x0 : Vec Ideal S2048x4 .f32) (x1 : Vec Ideal S4x256 .f32) (x2 : Vec Ideal S256 .f32)
    (x3 : Vec Ideal S256x256 .f32) (x4 : Vec Ideal S256 .f32) (x5 : Vec Ideal S256x64 .f32)
    (x6 : Vec Ideal S64 .f32) (r : Fin 2048) (j : Fin 64) :
    k0_pay1 (F := Ideal) (k0_pay3 x5) (k0_pay4 x0 x1 x2 x3 x4) (constant S2048x64 .f32 0x00000000#32) x6 (ix2 r j)
      = mlp3 (fun k : Fin 4 => x0 (ix2 r k)) x1 x2 x3 x4 x5 x6 j :=
  dense_row dot_S2048x256_S256x64_S2048x64_1_0_0_1_n_n rfl rfl rfl rfl rfl rfl (k0_pay4 x0 x1 x2 x3 x4) x5 x6 _ _ _
    _ r (fun k => hidden_pay x0 x1 x2 x3 x4 r k) j

/-- The edge kernel's barrier payload at `(r, q)`: the barrier row of the first two coordinates of row `r`. -/
theorem barrier_pay (x0 : Vec Ideal S2048x4 .f32) (r : Fin 2048) (q : Fin 2) :
    k0_pay2 (F := Ideal) x0 (ix2 r q) = barrier (fun k : Fin 2 => x0 (ix2 r ⟨k.val, by omega⟩)) q := by
  -- the slice of the first two columns reads the row's first two coordinates
  have hp : ∀ k : Fin 2, extractStridedSlice S2048x2 ![0, 0] x0 slices_S2048x4_o0_0_S2048x2 (ix2 r k)
      = x0 (ix2 r ⟨k.val, by omega⟩) := fun k =>
    slice2_axis1_apply 0 x0 slices_S2048x4_o0_0_S2048x2 r k ⟨k.val, by omega⟩ (Nat.zero_add _).symm
  -- the square root of the row's sum of squares, kept as a column, is the pair's length
  have hlen : (sqrt (shapeCast S2048x1
        (multiReduction .add [1] S2048
          (mulf (extractStridedSlice S2048x2 ![0, 0] x0 slices_S2048x4_o0_0_S2048x2)
            (extractStridedSlice S2048x2 ![0, 0] x0 slices_S2048x4_o0_0_S2048x2))
          0x00000000#32 reduces_S2048x2_S2048 (.inl rfl) rfl)
        shapeCasts_S2048_S2048x1) : FVec Ideal S2048x1 .f32) (ix2 r (0 : Fin 1))
      = len2 (fun k : Fin 2 => x0 (ix2 r ⟨k.val, by omega⟩)) := by
    show Ideal.sqrt (shapeCast S2048x1 _ shapeCasts_S2048_S2048x1 (ix2 r (0 : Fin 1))) = _
    rw [shapeCast_a_a1_apply _ shapeCasts_S2048_S2048x1 r 0]
    refine congrArg Ideal.sqrt ((rowSum_apply _ reduces_S2048x2_S2048 (.inl rfl) rfl r).trans ?_)
    exact Finset.sum_congr rfl fun k _ => by rw [mulf_apply, hp k]
  unfold k0_pay2 barrier
  rw [divf_apply, subf_apply, divf_apply, broadcast_apply, hp q,
    broadcastTo_a1_ab_apply _ broadcasts_S2048x1_S2048x2 r q,
    broadcastTo_a1_ab_apply _ broadcasts_S2048x1_S2048x2 r q, subf_apply, broadcast_apply, hlen]
  show Ideal.div (Ideal.ofBits .f32 0x00000000#32 - _) _ = _
  rw [Ideal.ofBits_zero_f32, zero_sub]
  rfl

/-- The node kernel's payload at `(r, q)`: the three dense layers on row `r` of the summed edge rows, plus the
    summed barrier row. -/
theorem node_pay (x0 : Vec Ideal S2048x64 .f32) (x1 : Vec Ideal S64x256 .f32) (x2 : Vec Ideal S256 .f32)
    (x3 : Vec Ideal S256x256 .f32) (x4 : Vec Ideal S256 .f32) (x5 : Vec Ideal S256x2 .f32)
    (x6 : Vec Ideal S2 .f32) (x7 : Vec Ideal S2048x2 .f32) (r : Fin 2048) (q : Fin 2) :
    k1_pay1 (F := Ideal) x0 x1 x2 x3 x4 x5 x6 x7 (ix2 r q)
      = mlp3 (fun j : Fin 64 => x0 (ix2 r j)) x1 x2 x3 x4 x5 x6 q + x7 (ix2 r q) := by
  have h1 : ∀ k : Fin 64, (truncf .bf16 (shapeCast S2048x64 x0 shapeCasts_S2048x64_S2048x64) bitsLt_bf16_f32
      : FVec Ideal S2048x64 .bf16) (ix2 r k) = x0 (ix2 r k) := fun k => by
    rw [truncf_apply, shapeCast_self]
  have h7 : shapeCast S2048x2 x7 shapeCasts_S2048x2_S2048x2 (ix2 r q) = x7 (ix2 r q) := by
    rw [shapeCast_self]
  unfold k1_pay1
  rw [addf_apply, h7]
  refine congrArg (· + x7 (ix2 r q)) ?_
  exact dense_row dot_S2048x256_S256x2_S2048x2_1_0_0_1_n_n rfl rfl rfl rfl rfl rfl _ x5 x6 _ _ _ _ r
    (fun k => relu_dense_row dot_S2048x256_S256x256_S2048x256_1_0_0_1_n_n rfl rfl rfl rfl rfl rfl _ x3 x4 _ _ _ _ _ r
      (fun k' => relu_dense_row dot_S2048x64_S64x256_S2048x256_1_0_0_1_n_n rfl rfl rfl rfl rfl rfl
        (truncf .bf16 (shapeCast S2048x64 x0 shapeCasts_S2048x64_S2048x64) bitsLt_bf16_f32) x1 x2 _ _ _ _ _ r h1 k') k) q

end Cert.KernelIdeal.KernelRows

end
-- ==== Proof.Blocks0.lean ====
/-
  Region 0 (the edge kernel) as whole arrays.

  The region's grid has 256 points; point `t` reads rows `2048 t … 2048 t + 2047` of the edge features
  and the six weight and bias arrays whole, and writes back rows `2048 t … 2048 t + 2047` of its two
  results.  Row `r` of a written block depends only on row `r` of the feature block, so each result is
  ONE function of the arrays the region found: the edge rows and the barrier rows of Spec.lean.
-/
import proofs.«138461_j13503377178879_1_alg».proof.Proof.Gen.KernelIdeal.Frame
import proofs.«138461_j13503377178879_1_alg».proof.Proof.Spec
import proofs.«138461_j13503377178879_1_alg».proof.Proof.KernelRows
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.DeepSet

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- The printed index maps of region 0, decided over its grid: the feature window and the two result windows
    are at block `(t, 0)`, the weight and bias windows at block `0`. -/
theorem idx0 : ∀ t : Fin cfg0.N,
    win0_0.index t (0 : Fin 2) = t.val ∧ win0_0.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- A block row that is a row of the array: the edge layers of the block's row are the array's edge row. -/
theorem edge_block (A0 : S524288x4.Idx → EReal) (A1 : S4x256.Idx → EReal) (A2 : S256.Idx → EReal) (A3 : S256x256.Idx → EReal)
    (A4 : S256.Idx → EReal) (A5 : S256x64.Idx → EReal) (A6 : S64.Idx → EReal)
    (x0 : Vec Ideal S2048x4 .f32) (x1 : Vec Ideal S4x256 .f32) (x2 : Vec Ideal S256 .f32) (x3 : Vec Ideal S256x256 .f32)
    (x4 : Vec Ideal S256 .f32) (x5 : Vec Ideal S256x64 .f32) (x6 : Vec Ideal S64 .f32)
    (i : S524288x64.Idx) (r : Fin 2048) (j : Fin 64)
    (h0 : ∀ k : Fin 4, x0 (ix2 r k) = A0 (ix2 (⟨(i 0).val, idx2_lt0 i⟩ : Fin 524288) k))
    (h1 : x1 = A1) (h2 : x2 = A2) (h3 : x3 = A3) (h4 : x4 = A4) (h5 : x5 = A5) (h6 : x6 = A6) (hj : (i 1).val = j.val) :
    mlp3 (fun k : Fin 4 => x0 (ix2 r k)) x1 x2 x3 x4 x5 x6 j = ofRows (edgeRows A0 A1 A2 A3 A4 A5 A6) i := by
  subst h1 h2 h3 h4 h5 h6
  rw [ofRows_apply]
  unfold edgeRows row
  have e : (⟨(i 1).val, idx2_lt1 i⟩ : Fin 64) = j := Fin.ext hj
  rw [e]
  exact congrArg (fun f => mlp3 f x1 x2 x3 x4 x5 x6 j) (funext h0)

/-- The edge rows as the region finds the arrays. -/
abbrev H0 (c : Dev nD) : S524288x64.Idx → EReal :=
  ofRows (edgeRows (V c main_arg0) (V c main_arg2) (V c main_arg3) (V c main_arg4) (V c main_arg5) (V c main_arg6) (V c main_arg7))

theorem flushed0_7_eq (c : Dev nD) (t : Fin cfg0.N) :
    (dat0 V c).flushed 7 t = ((cfg0.win 7).blk t).view.read (Elt Ideal) (H0 V c) := by
  show (cfg0.win 7).cut (grid0.coords t) ((dat0 V c).after 7 t) = _
  rw [after0_7]
  unfold out0_7
  rw [View.canon_unit_zero hz2]
  simp only [View.ld_unit_zero (S := S2048x4) hz2, View.ld_unit_zero (S := S4x256) hz2, View.ld_unit_zero (S := S256x256) hz2,
    View.ld_unit_zero (S := S256x64) hz2, View.ld_unit_zero (S := S256) hz1, View.ld_unit_zero (S := S64) hz1]
  refine funext fun (y : S2048x64.Idx) => ?_
  obtain ⟨r, j, rfl⟩ : ∃ (r : Fin 2048) (j : Fin 64), y = ix2 r j := ⟨y 0, y 1, eq_ix2 y⟩
  obtain ⟨e00, e01, e70, e71, e80, e81, e10, e11, e20, e30, e31, e40, e50, e51, e60⟩ := idx0 t
  show k0_pay1 (k0_pay3 (iblk0 V c 5 t)) (k0_pay4 (iblk0 V c 0 t) (iblk0 V c 1 t) (iblk0 V c 2 t) (iblk0 V c 3 t) (iblk0 V c 4 t))
      (constant S2048x64 .f32 0x00000000#32) (iblk0 V c 6 t) (ix2 r j) = H0 V c (((cfg0.win 7).blk t).view.emb (ix2 r j))
  refine (KernelRows.edge_pay (iblk0 V c 0 t) (iblk0 V c 1 t) (iblk0 V c 2 t) (iblk0 V c 3 t) (iblk0 V c 4 t) (iblk0 V c 5 t) (iblk0 V c 6 t) r j).trans ?_
  refine edge_block (V c main_arg0) (V c main_arg2) (V c main_arg3) (V c main_arg4) (V c main_arg5) (V c main_arg6) (V c main_arg7)
    (iblk0 V c 0 t) (iblk0 V c 1 t) (iblk0 V c 2 t) (iblk0 V c 3 t) (iblk0 V c 4 t) (iblk0 V c 5 t) (iblk0 V c 6 t)
    (((cfg0.win 7).blk t).view.emb (ix2 r j)) r j ?_ ?_ ?_ ?_ ?_ ?_ ?_ ?_
  · intro k
    show V c main_arg0 (((cfg0.win 0).blk t).view.emb (ix2 r k)) = _
    refine congrArg (V c main_arg0) (funext fun a => Fin.ext ?_)
    match a with
    | ⟨0, _⟩ => show win0_0.index t (0 : Fin 2) * 2048 + 1 * r.val = win0_7.index t (0 : Fin 2) * 2048 + 1 * r.val; rw [e00, e70]
    | ⟨1, _⟩ => show win0_0.index t (1 : Fin 2) * 4 + 1 * k.val = k.val; rw [e01]; omega
  · refine funext fun (y : S4x256.Idx) => ?_
    show V c main_arg2 (((cfg0.win 1).blk t).view.emb y) = V c main_arg2 y
    refine congrArg (V c main_arg2) (funext fun a => Fin.ext ?_)
    match a with
    | ⟨0, _⟩ => show win0_1.index t (0 : Fin 2) * 4 + 1 * (y 0).val = (y 0).val; rw [e10]; omega
    | ⟨1, _⟩ => show win0_1.index t (1 : Fin 2) * 256 + 1 * (y 1).val = (y 1).val; rw [e11]; omega
  · refine funext fun (y : S256.Idx) => ?_
    show V c main_arg3 (((cfg0.win 2).blk t).view.emb y) = V c main_arg3 y
    refine congrArg (V c main_arg3) (funext fun a => Fin.ext ?_)
    match a with
    | ⟨0, _⟩ => show win0_2.index t (0 : Fin 1) * 256 + 1 * (y 0).val = (y 0).val; rw [e20]; omega
  · refine funext fun (y : S256x256.Idx) => ?_
    show V c main_arg4 (((cfg0.win 3).blk t).view.emb y) = V c main_arg4 y
    refine congrArg (V c main_arg4) (funext fun a => Fin.ext ?_)
    match a with
    | ⟨0, _⟩ => show win0_3.index t (0 : Fin 2) * 256 + 1 * (y 0).val = (y 0).val; rw [e30]; omega
    | ⟨1, _⟩ => show win0_3.index t (1 : Fin 2) * 256 + 1 * (y 1).val = (y 1).val; rw [e31]; omega
  · refine funext fun (y : S256.Idx) => ?_
    show V c main_arg5 (((cfg0.win 4).blk t).view.emb y) = V c main_arg5 y
    refine congrArg (V c main_arg5) (funext fun a => Fin.ext ?_)
    match a with
    | ⟨0, _⟩ => show win0_4.index t (0 : Fin 1) * 256 + 1 * (y 0).val = (y 0).val; rw [e40]; omega
  · refine funext fun (y : S256x64.Idx) => ?_
    show V c main_arg6 (((cfg0.win 5).blk t).view.emb y) = V c main_arg6 y
    refine congrArg (V c main_arg6) (funext fun a => Fin.ext ?_)
    match a with
    | ⟨0, _⟩ => show win0_5.index t (0 : Fin 2) * 256 + 1 * (y 0).val = (y 0).val; rw [e50]; omega
    | ⟨1, _⟩ => show win0_5.index t (1 : Fin 2) * 64 + 1 * (y 1).val = (y 1).val; rw [e51]; omega
  · refine funext fun (y : S64.Idx) => ?_
    show V c main_arg7 (((cfg0.win 6).blk t).view.emb y) = V c main_arg7 y
    refine congrArg (V c main_arg7) (funext fun a => Fin.ext ?_)
    match a with
    | ⟨0, _⟩ => show win0_6.index t (0 : Fin 1) * 64 + 1 * (y 0).val = (y 0).val; rw [e60]; omega
  · show win0_7.index t (1 : Fin 2) * 64 + 1 * j.val = j.val
    rw [e71]; omega

/-- An index of the first result array is in point `t`'s block iff each coordinate is in the block's range. -/
theorem mem_blk0_7 (t : Fin cfg0.N) (i : S524288x64.Idx) :
    i ∈ ((cfg0.win 7).blk t).view.set ↔ ∀ a : Fin 2, win0_7.index t a * S2048x64.size a ≤ (i a).val ∧ (i a).val < win0_7.index t a * S2048x64.size a + S2048x64.size a := by
  show i ∈ ((View.whole main_v0_0).slice (win0_7.rect t)).set ↔ _
  rw [View.set_slice_whole, Rect.mem_set_unit]
  exact Iff.rfl

/-- Row `e` of the first result array is in the block of point `e / 2048`. -/
theorem cover0_7 (i : S524288x64.Idx) : ∃ t : Fin cfg0.N, (cfg0.win 7).flush t = true ∧ i ∈ ((cfg0.win 7).blk t).view.set := by
  have hi0 : (i 0).val < 524288 := (i 0).isLt
  have hi1 : (i 1).val < 64 := (i 1).isLt
  let t : Fin cfg0.N := ⟨(i 0).val / 2048, by show (i 0).val / 2048 < grid0.N; rw [N_0]; omega⟩
  obtain ⟨e00, e01, e70, e71, e80, e81, -⟩ := idx0 t
  have ht : t.val = (i 0).val / 2048 := rfl
  refine ⟨t, flush0_7 t, ?_⟩
  rw [mem_blk0_7]
  intro a
  match a with
  | ⟨0, _⟩ => show win0_7.index t (0 : Fin 2) * 2048 ≤ (i 0).val ∧ (i 0).val < win0_7.index t (0 : Fin 2) * 2048 + 2048; rw [e70]; omega
  | ⟨1, _⟩ => show win0_7.index t (1 : Fin 2) * 64 ≤ (i 1).val ∧ (i 1).val < win0_7.index t (1 : Fin 2) * 64 + 64; rw [e71]; omega

/-- THE FIRST RESULT ARRAY after region 0: the edge rows of the arrays the region found. -/
theorem final0_7 (c : Dev nD) : (dat0 V c).arrAt 7 cfg0.N = H0 V c :=
  (dat0 V c).arrAt_eq_of_cover 7 (H0 V c) (fun t _ => flushed0_7_eq V c t) cover0_7

/-- A block row that is a row of the array: the barrier row of the block's row is the array's barrier row. -/
theorem barrier_block (A0 : S524288x4.Idx → EReal) (x0 : Vec Ideal S2048x4 .f32) (i : S524288x2.Idx) (r : Fin 2048) (q : Fin 2)
    (h0 : ∀ k : Fin 4, x0 (ix2 r k) = A0 (ix2 (⟨(i 0).val, idx2_lt0 i⟩ : Fin 524288) k)) (hq : (i 1).val = q.val) :
    barrier (fun k : Fin 2 => x0 (ix2 r ⟨k.val, by omega⟩)) q = ofRows (barrierRows A0) i := by
  rw [ofRows_apply]
  unfold barrierRows
  have e : (⟨(i 1).val, idx2_lt1 i⟩ : Fin 2) = q := Fin.ext hq
  rw [e]
  exact congrArg (fun f => barrier f q) (funext fun k => h0 ⟨k.val, by omega⟩)

/-- The barrier rows as the region finds the feature array. -/
abbrev C0 (c : Dev nD) : S524288x2.Idx → EReal := ofRows (barrierRows (V c main_arg0))

theorem flushed0_8_eq (c : Dev nD) (t : Fin cfg0.N) :
    (dat0 V c).flushed 8 t = ((cfg0.win 8).blk t).view.read (Elt Ideal) (C0 V c) := by
  show (cfg0.win 8).cut (grid0.coords t) ((dat0 V c).after 8 t) = _
  rw [after0_8]
  unfold out0_8
  rw [View.canon_unit_zero hz2]
  simp only [View.ld_unit_zero (S := S2048x4) hz2]
  refine funext fun (y : S2048x2.Idx) => ?_
  obtain ⟨r, q, rfl⟩ : ∃ (r : Fin 2048) (q : Fin 2), y = ix2 r q := ⟨y 0, y 1, eq_ix2 y⟩
  obtain ⟨e00, e01, e70, e71, e80, e81, -⟩ := idx0 t
  show k0_pay2 (iblk0 V c 0 t) (ix2 r q) = C0 V c (((cfg0.win 8).blk t).view.emb (ix2 r q))
  refine (KernelRows.barrier_pay (iblk0 V c 0 t) r q).trans ?_
  refine barrier_block (V c main_arg0) (iblk0 V c 0 t) (((cfg0.win 8).blk t).view.emb (ix2 r q)) r q ?_ ?_
  · intro k
    show V c main_arg0 (((cfg0.win 0).blk t).view.emb (ix2 r k)) = _
    refine congrArg (V c main_arg0) (funext fun a => Fin.ext ?_)
    match a with
    | ⟨0, _⟩ => show win0_0.index t (0 : Fin 2) * 2048 + 1 * r.val = win0_8.index t (0 : Fin 2) * 2048 + 1 * r.val; rw [e00, e80]
    | ⟨1, _⟩ => show win0_0.index t (1 : Fin 2) * 4 + 1 * k.val = k.val; rw [e01]; omega
  · show win0_8.index t (1 : Fin 2) * 2 + 1 * q.val = q.val
    rw [e81]; omega

theorem mem_blk0_8 (t : Fin cfg0.N) (i : S524288x2.Idx) :
    i ∈ ((cfg0.win 8).blk t).view.set ↔ ∀ a : Fin 2, win0_8.index t a * S2048x2.size a ≤ (i a).val ∧ (i a).val < win0_8.index t a * S2048x2.size a + S2048x2.size a := by
  show i ∈ ((View.whole main_v0_1).slice (win0_8.rect t)).set ↔ _
  rw [View.set_slice_whole, Rect.mem_set_unit]
  exact Iff.rfl

theorem cover0_8 (i : S524288x2.Idx) : ∃ t : Fin cfg0.N, (cfg0.win 8).flush t = true ∧ i ∈ ((cfg0.win 8).blk t).view.set := by
  have hi0 : (i 0).val < 524288 := (i 0).isLt
  have hi1 : (i 1).val < 2 := (i 1).isLt
  let t : Fin cfg0.N := ⟨(i 0).val / 2048, by show (i 0).val / 2048 < grid0.N; rw [N_0]; omega⟩
  obtain ⟨e00, e01, e70, e71, e80, e81, -⟩ := idx0 t
  have ht : t.val = (i 0).val / 2048 := rfl
  refine ⟨t, flush0_8 t, ?_⟩
  rw [mem_blk0_8]
  intro a
  match a with
  | ⟨0, _⟩ => show win0_8.index t (0 : Fin 2) * 2048 ≤ (i 0).val ∧ (i 0).val < win0_8.index t (0 : Fin 2) * 2048 + 2048; rw [e80]; omega
  | ⟨1, _⟩ => show win0_8.index t (1 : Fin 2) * 2 ≤ (i 1).val ∧ (i 1).val < win0_8.index t (1 : Fin 2) * 2 + 2; rw [e81]; omega

/-- THE SECOND RESULT ARRAY after region 0: the barrier rows of the feature array the region found. -/
theorem final0_8 (c : Dev nD) : (dat0 V c).arrAt 8 cfg0.N = C0 V c :=
  (dat0 V c).arrAt_eq_of_cover 8 (C0 V c) (fun t _ => flushed0_8_eq V c t) cover0_8

end Cert.KernelIdeal.Blocks

end
-- ==== Proof.Blocks1.lean ====
/-
  Region 1 (the node kernel) as a whole array.

  The region's grid has 8 points; point `t` reads rows `2048 t … 2048 t + 2047` of the per-segment sums and
  of the per-segment barrier sums, the six weight and bias arrays whole, and writes back rows
  `2048 t … 2048 t + 2047` of the result.  Row `r` of a written block depends only on row `r` of the two
  blocks read, so the result is ONE function of the arrays the region found: the node layers on each
  row of the sums, plus the barrier sums.
-/
import proofs.«138461_j13503377178879_1_alg».proof.Proof.Gen.KernelIdeal.Frame
import proofs.«138461_j13503377178879_1_alg».proof.Proof.Spec
import proofs.«138461_j13503377178879_1_alg».proof.Proof.KernelRows
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Cert.KernelIdeal Cert.KernelIdeal.Gen Cert.DeepSet

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- The printed index maps of region 1, decided over its grid: the two row-blocked inputs and the result are
    at block `(t, 0)`, the weight and bias windows at block `0`. -/
theorem idx1 : ∀ t : Fin cfg1.N,
    win1_0.index t (0 : Fin 2) = t.val ∧ win1_0.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

/-- The node rows of an array of sums plus an array of barrier sums. -/
def nodeOut (A0 : S16384x64.Idx → EReal) (A1 : S64x256.Idx → EReal) (A2 : S256.Idx → EReal) (A3 : S256x256.Idx → EReal)
    (A4 : S256.Idx → EReal) (A5 : S256x2.Idx → EReal) (A6 : S2.Idx → EReal) (A7 : S16384x2.Idx → EReal) : S16384x2.Idx → EReal :=
  ofRows fun n q => mlp3 (row A0 n) A1 A2 A3 A4 A5 A6 q + A7 (ix2 n q)

/-- A block row that is a row of the arrays: the node layers of the block's row plus the block's barrier entry are
    the arrays' node row. -/
theorem node_block (A0 : S16384x64.Idx → EReal) (A1 : S64x256.Idx → EReal) (A2 : S256.Idx → EReal) (A3 : S256x256.Idx → EReal)
    (A4 : S256.Idx → EReal) (A5 : S256x2.Idx → EReal) (A6 : S2.Idx → EReal) (A7 : S16384x2.Idx → EReal)
    (x0 : Vec Ideal S2048x64 .f32) (x1 : Vec Ideal S64x256 .f32) (x2 : Vec Ideal S256 .f32) (x3 : Vec Ideal S256x256 .f32)
    (x4 : Vec Ideal S256 .f32) (x5 : Vec Ideal S256x2 .f32) (x6 : Vec Ideal S2 .f32) (x7 : Vec Ideal S2048x2 .f32)
    (i : S16384x2.Idx) (r : Fin 2048) (q : Fin 2)
    (h0 : ∀ k : Fin 64, x0 (ix2 r k) = A0 (ix2 (⟨(i 0).val, idx2_lt0 i⟩ : Fin 16384) k))
    (h1 : x1 = A1) (h2 : x2 = A2) (h3 : x3 = A3) (h4 : x4 = A4) (h5 : x5 = A5) (h6 : x6 = A6)
    (h7 : x7 (ix2 r q) = A7 (ix2 (⟨(i 0).val, idx2_lt0 i⟩ : Fin 16384) q)) (hq : (i 1).val = q.val) :
    mlp3 (fun k : Fin 64 => x0 (ix2 r k)) x1 x2 x3 x4 x5 x6 q + x7 (ix2 r q) = nodeOut A0 A1 A2 A3 A4 A5 A6 A7 i := by
  subst h1 h2 h3 h4 h5 h6
  unfold nodeOut
  rw [ofRows_apply]
  unfold row
  have e : (⟨(i 1).val, idx2_lt1 i⟩ : Fin 2) = q := Fin.ext hq
  rw [e, h7]
  exact congrArg (fun f => mlp3 f x1 x2 x3 x4 x5 x6 q + A7 (ix2 (⟨(i 0).val, idx2_lt0 i⟩ : Fin 16384) q)) (funext h0)

/-- The node rows as the region finds the arrays. -/
abbrev O1 (c : Dev nD) : S16384x2.Idx → EReal :=
  nodeOut (V c main_v5) (V c main_arg8) (V c main_arg9) (V c main_arg10) (V c main_arg11) (V c main_arg12) (V c main_arg13) (V c main_v6)

theorem flushed1_8_eq (c : Dev nD) (t : Fin cfg1.N) :
    (dat1 V c).flushed 8 t = ((cfg1.win 8).blk t).view.read (Elt Ideal) (O1 V c) := by
  show (cfg1.win 8).cut (grid1.coords t) ((dat1 V c).after 8 t) = _
  rw [after1_8]
  unfold out1_8
  rw [View.canon_unit_zero hz2]
  simp only [View.ld_unit_zero (S := S2048x64) hz2, View.ld_unit_zero (S := S64x256) hz2, View.ld_unit_zero (S := S256x256) hz2,
    View.ld_unit_zero (S := S256x2) hz2, View.ld_unit_zero (S := S2048x2) hz2, View.ld_unit_zero (S := S256) hz1, View.ld_unit_zero (S := S2) hz1]
  refine funext fun (y : S2048x2.Idx) => ?_
  obtain ⟨r, q, rfl⟩ : ∃ (r : Fin 2048) (q : Fin 2), y = ix2 r q := ⟨y 0, y 1, eq_ix2 y⟩
  obtain ⟨e00, e01, e70, e71, e80, e81, e10, e11, e20, e30, e31, e40, e50, e51, e60⟩ := idx1 t
  show k1_pay1 (iblk1 V c 0 t) (iblk1 V c 1 t) (iblk1 V c 2 t) (iblk1 V c 3 t) (iblk1 V c 4 t) (iblk1 V c 5 t) (iblk1 V c 6 t) (iblk1 V c 7 t) (ix2 r q)
      = O1 V c (((cfg1.win 8).blk t).view.emb (ix2 r q))
  refine (KernelRows.node_pay (iblk1 V c 0 t) (iblk1 V c 1 t) (iblk1 V c 2 t) (iblk1 V c 3 t) (iblk1 V c 4 t) (iblk1 V c 5 t) (iblk1 V c 6 t) (iblk1 V c 7 t) r q).trans ?_
  refine node_block (V c main_v5) (V c main_arg8) (V c main_arg9) (V c main_arg10) (V c main_arg11) (V c main_arg12) (V c main_arg13) (V c main_v6)
    (iblk1 V c 0 t) (iblk1 V c 1 t) (iblk1 V c 2 t) (iblk1 V c 3 t) (iblk1 V c 4 t) (iblk1 V c 5 t) (iblk1 V c 6 t) (iblk1 V c 7 t)
    (((cfg1.win 8).blk t).view.emb (ix2 r q)) r q ?_ ?_ ?_ ?_ ?_ ?_ ?_ ?_ ?_
  · intro k
    show V c main_v5 (((cfg1.win 0).blk t).view.emb (ix2 r k)) = _
    refine congrArg (V c main_v5) (funext fun a => Fin.ext ?_)
    match a with
    | ⟨0, _⟩ => show win1_0.index t (0 : Fin 2) * 2048 + 1 * r.val = win1_8.index t (0 : Fin 2) * 2048 + 1 * r.val; rw [e00, e80]
    | ⟨1, _⟩ => show win1_0.index t (1 : Fin 2) * 64 + 1 * k.val = k.val; rw [e01]; omega
  · refine funext fun (y : S64x256.Idx) => ?_
    show V c main_arg8 (((cfg1.win 1).blk t).view.emb y) = V c main_arg8 y
    refine congrArg (V c main_arg8) (funext fun a => Fin.ext ?_)
    match a with
    | ⟨0, _⟩ => show win1_1.index t (0 : Fin 2) * 64 + 1 * (y 0).val = (y 0).val; rw [e10]; omega
    | ⟨1, _⟩ => show win1_1.index t (1 : Fin 2) * 256 + 1 * (y 1).val = (y 1).val; rw [e11]; omega
  · refine funext fun (y : S256.Idx) => ?_
    show V c main_arg9 (((cfg1.win 2).blk t).view.emb y) = V c main_arg9 y
    refine congrArg (V c main_arg9) (funext fun a => Fin.ext ?_)
    match a with
    | ⟨0, _⟩ => show win1_2.index t (0 : Fin 1) * 256 + 1 * (y 0).val = (y 0).val; rw [e20]; omega
  · refine funext fun (y : S256x256.Idx) => ?_
    show V c main_arg10 (((cfg1.win 3).blk t).view.emb y) = V c main_arg10 y
    refine congrArg (V c main_arg10) (funext fun a => Fin.ext ?_)
    match a with
    | ⟨0, _⟩ => show win1_3.index t (0 : Fin 2) * 256 + 1 * (y 0).val = (y 0).val; rw [e30]; omega
    | ⟨1, _⟩ => show win1_3.index t (1 : Fin 2) * 256 + 1 * (y 1).val = (y 1).val; rw [e31]; omega
  · refine funext fun (y : S256.Idx) => ?_
    show V c main_arg11 (((cfg1.win 4).blk t).view.emb y) = V c main_arg11 y
    refine congrArg (V c main_arg11) (funext fun a => Fin.ext ?_)
    match a with
    | ⟨0, _⟩ => show win1_4.index t (0 : Fin 1) * 256 + 1 * (y 0).val = (y 0).val; rw [e40]; omega
  · refine funext fun (y : S256x2.Idx) => ?_
    show V c main_arg12 (((cfg1.win 5).blk t).view.emb y) = V c main_arg12 y
    refine congrArg (V c main_arg12) (funext fun a => Fin.ext ?_)
    match a with
    | ⟨0, _⟩ => show win1_5.index t (0 : Fin 2) * 256 + 1 * (y 0).val = (y 0).val; rw [e50]; omega
    | ⟨1, _⟩ => show win1_5.index t (1 : Fin 2) * 2 + 1 * (y 1).val = (y 1).val; rw [e51]; omega
  · refine funext fun (y : S2.Idx) => ?_
    show V c main_arg13 (((cfg1.win 6).blk t).view.emb y) = V c main_arg13 y
    refine congrArg (V c main_arg13) (funext fun a => Fin.ext ?_)
    match a with
    | ⟨0, _⟩ => show win1_6.index t (0 : Fin 1) * 2 + 1 * (y 0).val = (y 0).val; rw [e60]; omega
  · show V c main_v6 (((cfg1.win 7).blk t).view.emb (ix2 r q)) = _
    refine congrArg (V c main_v6) (funext fun a => Fin.ext ?_)
    match a with
    | ⟨0, _⟩ => show win1_7.index t (0 : Fin 2) * 2048 + 1 * r.val = win1_8.index t (0 : Fin 2) * 2048 + 1 * r.val; rw [e70, e80]
    | ⟨1, _⟩ => show win1_7.index t (1 : Fin 2) * 2 + 1 * q.val = q.val; rw [e71]; omega
  · show win1_8.index t (1 : Fin 2) * 2 + 1 * q.val = q.val
    rw [e81]; omega

/-- An index of the result array is in point `t`'s block iff each coordinate is in the block's range. -/
theorem mem_blk1_8 (t : Fin cfg1.N) (i : S16384x2.Idx) :
    i ∈ ((cfg1.win 8).blk t).view.set ↔ ∀ a : Fin 2, win1_8.index t a * S2048x2.size a ≤ (i a).val ∧ (i a).val < win1_8.index t a * S2048x2.size a + S2048x2.size a := by
  show i ∈ ((View.whole main_v7).slice (win1_8.rect t)).set ↔ _
  rw [View.set_slice_whole, Rect.mem_set_unit]
  exact Iff.rfl

/-- Row `n` of the result array is in the block of point `n / 2048`. -/
theorem cover1_8 (i : S16384x2.Idx) : ∃ t : Fin cfg1.N, (cfg1.win 8).flush t = true ∧ i ∈ ((cfg1.win 8).blk t).view.set := by
  have hi0 : (i 0).val < 16384 := (i 0).isLt
  have hi1 : (i 1).val < 2 := (i 1).isLt
  let t : Fin cfg1.N := ⟨(i 0).val / 2048, by show (i 0).val / 2048 < grid1.N; rw [N_1]; omega⟩
  obtain ⟨e00, e01, e70, e71, e80, e81, -⟩ := idx1 t
  have ht : t.val = (i 0).val / 2048 := rfl
  refine ⟨t, flush1_8 t, ?_⟩
  rw [mem_blk1_8]
  intro a
  match a with
  | ⟨0, _⟩ => show win1_8.index t (0 : Fin 2) * 2048 ≤ (i 0).val ∧ (i 0).val < win1_8.index t (0 : Fin 2) * 2048 + 2048; rw [e80]; omega
  | ⟨1, _⟩ => show win1_8.index t (1 : Fin 2) * 2 ≤ (i 1).val ∧ (i 1).val < win1_8.index t (1 : Fin 2) * 2 + 2; rw [e81]; omega

/-- THE RESULT ARRAY after region 1: the node rows of the arrays the region found. -/
theorem final1_8 (c : Dev nD) : (dat1 V c).arrAt 8 cfg1.N = O1 V c :=
  (dat1 V c).arrAt_eq_of_cover 8 (O1 V c) (fun t _ => flushed1_8_eq V c t) cover1_8

end Cert.KernelIdeal.Blocks1

end
-- ==== Proof.LibSegmentSum.lean ====
/-
  The accumulating float scatter over rows, read at an index.

  `Host.scatterAdd d x idx upd` with operand `x : [N, C]`, one column of signed index words `idx : [E, 1]` and
  updates `upd : [E, C]`, at the dimension numbers of a row scatter (update window axis 1, inserted window axis 0,
  scatter axis mapped to operand axis 0, index vector on axis 1), is at the extended reals

      result (n, q) = x (n, q) + ∑ over the update rows e whose index word, read signed, is n, of upd (e, q).

  An update row whose word is negative or at least `N` lands on no row and contributes nothing.

  The steps: an update index lands on an operand index exactly when, on every axis, the window's start plus the window
  coordinate is that index's coordinate (`resultIdx?_eq_some_iff`, for any dimension numbers); at the row scatter's
  numbers the start is the row's index word on axis 0 and 0 on axis 1, the window coordinate 0 on axis 0 and the
  update's column on axis 1, so update (e, c) lands on (n, q) exactly when the word of row e is n and c = q
  (`rows_resultIdx?_eq_some_iff`); the sum over the landing update indices is then the sum over the landing rows of
  the one entry in column q (`scatterAdd_rowsDims_apply`, and `scatterAdd_rows_apply` for any record whose four
  fields are these lists).
-/
import Idealize.ShloMosaic.PureOps.Ideal
import Idealize.ShloMosaic.PureOps.Ideal.Laws
import Idealize.ShloMosaic.Lib.ValueIdx

noncomputable section

open scoped BigOperators

namespace Idealize.ShloMosaic.LibSegmentSum

open Idealize.ShloMosaic Idealize.ShloMosaic.ValueIdx

/-- An update index `j` lands on the operand index `i` exactly when on every axis the window's start (a signed
    integer) plus the window coordinate is `i`'s coordinate. Any dimension numbers. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hh a
      have h1 := congrArg Fin.val (congrFun (Option.some.inj hh) a)
      have h2 := h a
      simp only at h1
      omega
    · intro hh
      congr 1
      funext a
      apply Fin.ext
      have h2 := h a
      have h3 := hh a
      simp only
      omega
  · rename_i h
    constructor
    · intro hh; cases hh
    · intro hh
      exfalso
      apply h
      intro a
      have h3 := hh a
      have h4 := (i a).isLt
      omega

section
variable {N C E w : Nat}
  (wf : ScatterDims.WF (⟨2, ![N, C]⟩ : Shape) (⟨2, ![E, 1]⟩ : Shape) (⟨2, ![E, C]⟩ : Shape) [1] [0] [0] 1)

/-- The row scatter's dimension numbers for an operand `[N, C]`, index words `[E, 1]` and updates `[E, C]`: update
    window axis 1, inserted window axis 0, the scatter axis mapped to operand axis 0, index vector on axis 1. -/
abbrev rowsDims (N C E : Nat)
    (wf : ScatterDims.WF (⟨2, ![N, C]⟩ : Shape) (⟨2, ![E, 1]⟩ : Shape) (⟨2, ![E, C]⟩ : Shape) [1] [0] [0] 1) :
    ScatterDims (⟨2, ![N, C]⟩ : Shape) (⟨2, ![E, 1]⟩ : Shape) (⟨2, ![E, C]⟩ : Shape) :=
  ⟨[1], [0], [0], 1, wf⟩

/-- On the row axis the window of update `(e, q)` starts at row `e`'s index word, read signed. -/
theorem rows_start0 (idx : IVec (⟨2, ![E, 1]⟩ : Shape) w) (e : Fin E) (q : Fin C) :
    (rowsDims N C E wf).start (ix2 e q) idx 0 = (idx (ix2 e (0 : Fin 1))).toInt := by
  unfold ScatterDims.start
  rw [dif_pos (show (0 : Fin 2) ∈ (rowsDims N C E wf).scatterDimsToOperandDims from List.mem_singleton.mpr rfl)]
  have hsi : (rowsDims N C E wf).siIdx (ix2 e q) ⟨List.idxOf (0 : Fin 2) (rowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at 0. -/
theorem rows_start1 (idx : IVec (⟨2, ![E, 1]⟩ : Shape) w) (j : (⟨2, ![E, C]⟩ : Shape).Idx) :
    (rowsDims N C E wf).start j idx 1 = 0 := by
  unfold ScatterDims.start
  rw [dif_neg (show ¬ (1 : Fin 2) ∈ ([0] : List (Fin 2)) by decide)]

/-- On the row axis (the inserted one) the window coordinate is 0. -/
theorem rows_window0 (j : (⟨2, ![E, C]⟩ : Shape).Idx) :
    (rowsDims N C E wf).window j 0 = 0 := by
  unfold ScatterDims.window
  have hm : ¬ (0 : Fin 2) ∈ (rowsDims N C E wf).sKept := by
    show ¬ (0 : Fin 2) ∈ (List.finRange 2).filter (· ∉ ([0] : List (Fin 2)))
    decide
  rw [dif_neg hm]

/-- On the column axis the window coordinate of update `(e, q)` is its column `q`. -/
theorem rows_window1 (e : Fin E) (q : Fin C) :
    (rowsDims N C E wf).window (ix2 e q) 1 = q.val := by
  unfold ScatterDims.window
  have hm : (1 : Fin 2) ∈ (rowsDims N C E wf).sKept := by
    show (1 : Fin 2) ∈ (List.finRange 2).filter (· ∉ ([0] : List (Fin 2)))
    decide
  rw [dif_pos hm]
  rfl

/-- Update `(e, q)` lands on operand element `(n, q')` exactly when row `e`'s index word, read signed, is `n` and
    the columns agree. -/
theorem rows_resultIdx?_eq_some_iff (idx : IVec (⟨2, ![E, 1]⟩ : Shape) w) (e : Fin E) (q : Fin C) (n : Fin N)
    (q' : Fin C) :
    (rowsDims N C E wf).resultIdx? (ix2 e q) idx = some (ix2 n q')
      ↔ (idx (ix2 e (0 : Fin 1))).toInt = (n.val : Int) ∧ q = q' := by
  rw [resultIdx?_eq_some_iff]
  constructor
  · intro h
    have h0 := h 0
    have h1 := h 1
    rw [rows_start0, rows_window0] at h0
    rw [rows_start1, rows_window1] at h1
    have e0 : ((ix2 n q' : (⟨2, ![N, C]⟩ : Shape).Idx) 0).val = n.val := rfl
    have e1 : ((ix2 n q' : (⟨2, ![N, C]⟩ : Shape).Idx) 1).val = q'.val := rfl
    refine ⟨?_, Fin.ext ?_⟩
    · omega
    · omega
  · rintro ⟨h0, rfl⟩ a
    match a with
    | ⟨0, _⟩ =>
      show (rowsDims N C E wf).start (ix2 e q) idx 0 + (((rowsDims N C E wf).window (ix2 e q) 0 : Nat) : Int) = (n.val : Int)
      rw [rows_start0, rows_window0, h0]
      simp
    | ⟨1, _⟩ =>
      show (rowsDims N C E wf).start (ix2 e q) idx 1 + (((rowsDims N C E wf).window (ix2 e q) 1 : Nat) : Int) = (q.val : Int)
      rw [rows_start1, rows_window1]
      simp

/-- THE ROW SCATTER READ AT `(n, q)`, for the record built from the literal lists: the operand's element plus the sum,
    over the update rows whose index word read signed is `n`, of the update at `(e, q)`. -/
theorem scatterAdd_rowsDims_apply {φ : FTy} (x : FVec Ideal (⟨2, ![N, C]⟩ : Shape) φ)
    (idx : IVec (⟨2, ![E, 1]⟩ : Shape) w) (upd : FVec Ideal (⟨2, ![E, C]⟩ : Shape) φ) (n : Fin N) (q : Fin C) :
    Host.scatterAdd (rowsDims N C E wf) x idx upd (ix2 n q)
      = x (ix2 n q)
        + ∑ e ∈ Finset.univ.filter (fun e : Fin E => (idx (ix2 e (0 : Fin 1))).toInt = (n.val : Int)), upd (ix2 e q) := by
  unfold Host.scatterAdd
  rw [Ideal.hostScatterAdd_def]
  unfold Ideal.hostScatterAdd
  congr 1
  rw [Finset.sum_filter, sum_idx2, Finset.sum_filter]
  refine Finset.sum_congr rfl fun e _ => ?_
  by_cases hA : (idx (ix2 e (0 : Fin 1))).toInt = (n.val : Int)
  · rw [if_pos hA, Finset.sum_eq_single q]
    · rw [if_pos ((rows_resultIdx?_eq_some_iff wf idx e q n q).2 ⟨hA, rfl⟩)]
    · intro c _ hc
      rw [if_neg]
      intro h
      exact hc ((rows_resultIdx?_eq_some_iff wf idx e c n q).1 h).2
    · intro h; exact absurd (Finset.mem_univ q) h
  · rw [if_neg hA]
    apply Finset.sum_eq_zero
    intro c _
    rw [if_neg]
    intro h
    exact hA ((rows_resultIdx?_eq_some_iff wf idx e c n q).1 h).1

end

/-- THE ROW SCATTER READ AT `(n, q)`, for any dimension-number record whose four fields are the row scatter's lists
    (each hypothesis is `rfl` at a program's literal record): the operand's element plus the sum, over the update rows
    whose index word read signed is `n`, of the update at `(e, q)`. -/
theorem scatterAdd_rows_apply {N C E w : Nat} {φ : FTy}
    (d : ScatterDims (⟨2, ![N, C]⟩ : Shape) (⟨2, ![E, 1]⟩ : Shape) (⟨2, ![E, C]⟩ : Shape))
    (h1 : d.updateWindowDims = [1]) (h2 : d.insertedWindowDims = [0]) (h3 : d.scatterDimsToOperandDims = [0])
    (h4 : d.indexVectorDim = 1)
    (x : FVec Ideal (⟨2, ![N, C]⟩ : Shape) φ) (idx : IVec (⟨2, ![E, 1]⟩ : Shape) w)
    (upd : FVec Ideal (⟨2, ![E, C]⟩ : Shape) φ) (n : Fin N) (q : Fin C) :
    Host.scatterAdd d x idx upd (ix2 n q)
      = x (ix2 n q)
        + ∑ e ∈ Finset.univ.filter (fun e : Fin E => (idx (ix2 e (0 : Fin 1))).toInt = (n.val : Int)), upd (ix2 e q) := by
  obtain ⟨uw, iw, sd, iv, wf⟩ := d
  simp only at h1 h2 h3 h4
  subst h1 h2 h3 h4
  exact scatterAdd_rowsDims_apply wf x idx upd n q

end Idealize.ShloMosaic.LibSegmentSum

end
-- ==== Proof.Mid.lean ====
/-
  The host stretch between the two regions, read at an index.

  Between the regions the program lays the two arrays region 0 wrote side by side (64 + 2 columns), adds
  the rows of each segment into an array of zeros (an accumulating scatter of rows), and slices the
  result back into its first 64 and last 2 columns.  Read at `(n, j)`, the first slice is the zero word
  plus the sum over the segment's rows of column `j` of the first array; the second slice likewise of
  the second array.  With the first array the edge rows and the second the barrier rows, the node rows
  of these two slices are the specification's `result`.
-/
import proofs.«138461_j13503377178879_1_alg».proof.Proof.Gen.KernelIdeal
import proofs.«138461_j13503377178879_1_alg».proof.Proof.LibSegmentSum
import proofs.«138461_j13503377178879_1_alg».proof.Proof.Spec
import Idealize.ShloMosaic.Lib.Pipeline.Value
import Idealize.ShloMosaic.PureOps.Ideal.Laws

set_option maxRecDepth 16384

noncomputable section

namespace Cert.KernelIdeal.Mid

open Idealize.ShloMosaic Idealize.ShloMosaic.ValueIdx Idealize.ShloMosaic.LibSegmentSum
open Cert.KernelIdeal Cert.KernelIdeal.Facts₀ Cert.DeepSet

/-- The program's row scatter into 66 columns, read at an index. -/
theorem scatter66 (x : FVec Ideal S16384x66 .f32) (idx : IVec S524288x1 32) (upd : FVec Ideal S524288x66 .f32) (n : Fin 16384) (q : Fin 66) :
    Host.scatterAdd (F := Ideal) scatter_S16384x66_S524288x1_S524288x66_1_0_0_1 x idx upd (ix2 n q)
      = x (ix2 n q) + ∑ e ∈ Finset.univ.filter (fun e : Fin 524288 => (idx (ix2 e (0 : Fin 1))).toInt = (n.val : Int)), upd (ix2 e q) :=
  scatterAdd_rows_apply (N := 16384) (C := 66) (E := 524288) scatter_S16384x66_S524288x1_S524288x66_1_0_0_1 rfl rfl rfl rfl x idx upd n q

/-- A scalar broadcast to the 66-column array reads the scalar everywhere. -/
theorem zeros66 (y : S_.Idx → EReal) (i : S16384x66.Idx) : broadcastInDim S16384x66 ![] bcast_S_S16384x66 y i = y ix0 :=
  broadcastInDim_apply _ bcast_S_S16384x66 y i ix0 (fun a => a.elim0)

/-- The segment words as a column, read at row `e`. -/
theorem segcol (seg : IVec S524288 32) (e : Fin 524288) :
    broadcastInDim S524288x1 ![0] bcast_S524288_S524288x1_0 seg (ix2 e (0 : Fin 1)) = seg (ix1 e) :=
  broadcastInDim_apply _ bcast_S524288_S524288x1_0 seg (ix2 e (0 : Fin 1)) (ix1 e) (fun a => match a with
    | ⟨0, _⟩ => by show e.val = if (524288 : Nat) = 1 then 0 else e.val; rw [if_neg (by decide)])

/-- Columns 0:64 of a 66-column array. -/
theorem slice64 (s : FVec Ideal S16384x66 .f32) (n : Fin 16384) (j : Fin 64) (hj : j.val < 66) :
    extractStridedSlice S16384x64 ![0, 0] s slices_S16384x66_S16384x64_0_0 (ix2 n j) = s (ix2 n (⟨j.val, hj⟩ : Fin 66)) :=
  extractStridedSlice_apply ![0, 0] s slices_S16384x66_S16384x64_0_0 (ix2 n j) (ix2 n (⟨j.val, hj⟩ : Fin 66)) (fun a => match a with
    | ⟨0, _⟩ => by show n.val = 0 + n.val; omega
    | ⟨1, _⟩ => by show j.val = 0 + j.val; omega)

/-- Columns 64:66 of a 66-column array. -/
theorem slice2 (s : FVec Ideal S16384x66 .f32) (n : Fin 16384) (q : Fin 2) (hq : 64 + q.val < 66) :
    extractStridedSlice S16384x2 ![0, 64] s slices_S16384x66_S16384x2_0_64 (ix2 n q) = s (ix2 n (⟨64 + q.val, hq⟩ : Fin 66)) :=
  extractStridedSlice_apply ![0, 64] s slices_S16384x66_S16384x2_0_64 (ix2 n q) (ix2 n (⟨64 + q.val, hq⟩ : Fin 66)) (fun a => match a with
    | ⟨0, _⟩ => by show n.val = 0 + n.val; omega
    | ⟨1, _⟩ => by show 64 + q.val = 64 + q.val; rfl)

/-- The two arrays side by side, read in the first 64 columns: the first array. -/
theorem side_left (H : FVec Ideal S524288x64 .f32) (Cn : FVec Ideal S524288x2 .f32) (e : Fin 524288) (j : Fin 64) (hj : j.val < 66) :
    concatenate S524288x66 1 [⟨S524288x64, H⟩, ⟨S524288x2, Cn⟩] concatenates_S524288x64_S524288x2_S524288x66_d1 (ix2 e (⟨j.val, hj⟩ : Fin 66))
      = H (ix2 e j) :=
  concatenate_pair_apply_left (1 : Fin 2) H Cn concatenates_S524288x64_S524288x2_S524288x66_d1 (ix2 e (⟨j.val, hj⟩ : Fin 66)) rfl (ix2 e j)
    (fun b => match b with
      | ⟨0, _⟩ => rfl
      | ⟨1, _⟩ => rfl)

/-- The two arrays side by side, read in the last 2 columns: the second array. -/
theorem side_right (H : FVec Ideal S524288x64 .f32) (Cn : FVec Ideal S524288x2 .f32) (e : Fin 524288) (q : Fin 2) (hq : 64 + q.val < 66) :
    concatenate S524288x66 1 [⟨S524288x64, H⟩, ⟨S524288x2, Cn⟩] concatenates_S524288x64_S524288x2_S524288x66_d1 (ix2 e (⟨64 + q.val, hq⟩ : Fin 66))
      = Cn (ix2 e q) :=
  concatenate_pair_apply_right (1 : Fin 2) H Cn concatenates_S524288x64_S524288x2_S524288x66_d1 (ix2 e (⟨64 + q.val, hq⟩ : Fin 66)) rfl rfl (ix2 e q)
    (fun b hb => match b with
      | ⟨0, _⟩ => rfl
      | ⟨1, _⟩ => absurd rfl hb)
    (by show q.val + 64 = 64 + q.val; omega)

/-- The host stretch as one function of the two arrays region 0 wrote and the segment words: the two arrays side by
    side, added per segment into zeros. -/
def summed (H : FVec Ideal S524288x64 .f32) (Cn : FVec Ideal S524288x2 .f32) (seg : IVec S524288 32) : FVec Ideal S16384x66 .f32 :=
  Host.scatterAdd (F := Ideal) scatter_S16384x66_S524288x1_S524288x66_1_0_0_1
    (broadcastInDim S16384x66 ![] bcast_S_S16384x66 (constant (F := Ideal) S_ .f32 0x00000000#32))
    (broadcastInDim S524288x1 ![0] bcast_S524288_S524288x1_0 seg)
    (concatenate S524288x66 1 [⟨S524288x64, H⟩, ⟨S524288x2, Cn⟩] concatenates_S524288x64_S524288x2_S524288x66_d1)

theorem summed_apply (H : FVec Ideal S524288x64 .f32) (Cn : FVec Ideal S524288x2 .f32) (seg : IVec S524288 32) (n : Fin 16384) (q : Fin 66) :
    summed H Cn seg (ix2 n q) = zeroW + ∑ e ∈ Finset.univ.filter (fun e : Fin 524288 => segOf seg e = (n.val : Int)),
      concatenate S524288x66 1 [⟨S524288x64, H⟩, ⟨S524288x2, Cn⟩] concatenates_S524288x64_S524288x2_S524288x66_d1 (ix2 e q) := by
  unfold summed
  rw [scatter66, zeros66]
  refine congrArg₂ (· + ·) rfl ?_
  refine Finset.sum_congr (Finset.filter_congr fun e _ => ?_) fun _ _ => rfl
  rw [segcol]; exact Iff.rfl

/-- Columns 0:64 of the per-segment sums: the zero word plus the segment's sum of the first array's rows. -/
theorem agg_apply (H : FVec Ideal S524288x64 .f32) (Cn : FVec Ideal S524288x2 .f32) (seg : IVec S524288 32) (n : Fin 16384) (j : Fin 64) :
    extractStridedSlice S16384x64 ![0, 0] (summed H Cn seg) slices_S16384x66_S16384x64_0_0 (ix2 n j)
      = zeroW + segSum (segOf seg) (fun e k => H (ix2 e k)) n.val j := by
  have hj : j.val < 66 := by have := j.isLt; omega
  rw [slice64 _ n j hj, summed_apply]
  unfold segSum
  refine congrArg₂ (· + ·) rfl ?_
  exact Finset.sum_congr rfl fun e _ => side_left H Cn e j hj

/-- Columns 64:66 of the per-segment sums: the zero word plus the segment's sum of the second array's rows. -/
theorem bar_apply (H : FVec Ideal S524288x64 .f32) (Cn : FVec Ideal S524288x2 .f32) (seg : IVec S524288 32) (n : Fin 16384) (q : Fin 2) :
    extractStridedSlice S16384x2 ![0, 64] (summed H Cn seg) slices_S16384x66_S16384x2_0_64 (ix2 n q)
      = zeroW + segSum (segOf seg) (fun e k => Cn (ix2 e k)) n.val q := by
  have hq : 64 + q.val < 66 := by have := q.isLt; omega
  rw [slice2 _ n q hq, summed_apply]
  unfold segSum
  refine congrArg₂ (· + ·) rfl ?_
  exact Finset.sum_congr rfl fun e _ => side_right H Cn e q hq

end Cert.KernelIdeal.Mid

end
-- ==== Proof.KernelValue.lean ====
/-
  The idealized kernel program's result is the specification's `result` of the launch arguments.

  Reading the program's fold of buffer contents backwards from the result: region 1 leaves the node rows
  of the arrays it found; of those, the two row-blocked inputs are the two column slices of the
  per-segment sums the host stretch computed from what region 0 left, the others are launch arguments;
  region 0 left the edge rows and the barrier rows of the launch arguments.
-/
import proofs.«138461_j13503377178879_1_alg».proof.Proof.RunValue
import proofs.«138461_j13503377178879_1_alg».proof.Proof.Blocks0
import proofs.«138461_j13503377178879_1_alg».proof.Proof.Blocks1
import proofs.«138461_j13503377178879_1_alg».proof.Proof.Mid
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen Cert.DeepSet Cert.KernelIdeal.Blocks Cert.KernelIdeal.Blocks1 Cert.KernelIdeal.Mid

/-- The node rows of the two column slices of the per-segment sums of the edge rows and the barrier rows are the
    specification's result. -/
theorem node_of_summed (ef : S524288x4.Idx → EReal) (seg : IVec S524288 32)
    (Wp1 : S4x256.Idx → EReal) (bp1 : S256.Idx → EReal) (Wp2 : S256x256.Idx → EReal) (bp2 : S256.Idx → EReal)
    (Wp3 : S256x64.Idx → EReal) (bp3 : S64.Idx → EReal)
    (Wr1 : S64x256.Idx → EReal) (br1 : S256.Idx → EReal) (Wr2 : S256x256.Idx → EReal) (br2 : S256.Idx → EReal)
    (Wr3 : S256x2.Idx → EReal) (br3 : S2.Idx → EReal) :
    nodeOut
        (extractStridedSlice S16384x64 ![0, 0] (summed (ofRows (edgeRows ef Wp1 bp1 Wp2 bp2 Wp3 bp3)) (ofRows (barrierRows ef)) seg)
          Facts₀.slices_S16384x66_S16384x64_0_0)
        Wr1 br1 Wr2 br2 Wr3 br3
        (extractStridedSlice S16384x2 ![0, 64] (summed (ofRows (edgeRows ef Wp1 bp1 Wp2 bp2 Wp3 bp3)) (ofRows (barrierRows ef)) seg)
          Facts₀.slices_S16384x66_S16384x2_0_64)
      = result ef seg Wp1 bp1 Wp2 bp2 Wp3 bp3 Wr1 br1 Wr2 br2 Wr3 br3 := by
  funext i
  obtain ⟨n, q, rfl⟩ : ∃ (n : Fin 16384) (q : Fin 2), i = ix2 n q := ⟨i 0, i 1, eq_ix2 i⟩
  unfold nodeOut result row
  rw [ofRows_ix2, ofRows_ix2]
  refine congrArg₂ (· + ·) ?_ ?_
  · refine congrArg (fun f => mlp3 f Wr1 br1 Wr2 br2 Wr3 br3 q) (funext fun j => ?_)
    rw [agg_apply]; rfl
  · rw [bar_apply]; rfl

variable (m : (ℓ : Loc nD τ sig) → Buf (Elt Ideal) ℓ) (ρ : Dev nD → PrngReg)

/-- After region 0 its first result array holds the edge rows of the launch arguments. -/
theorem W1_v0_0 (c : Dev nD) : W1 m ρ c (Proc.devRef .tc main_v0_0) = H0 (V0 m ρ) c :=
  (W1_arr m ρ c 7).trans (final0_7 (V0 m ρ) c)

/-- After region 0 its second result array holds the barrier rows of the launch features. -/
theorem W1_v0_1 (c : Dev nD) : W1 m ρ c (Proc.devRef .tc main_v0_1) = C0 (V0 m ρ) c :=
  (W1_arr m ρ c 8).trans (final0_8 (V0 m ρ) c)

/-- Region 0 leaves the segment words as launched. -/
theorem W1_arg1 (c : Dev nD) : W1 m ρ c (Proc.devRef .tc main_arg1) = m ((c : Thread nD τ).loc main_arg1) :=
  W1_of_ne m ρ c main_arg1 (by decide)

/-- Region 1 finds, as its first input array, columns 0:64 of the per-segment sums. -/
theorem V2_v5 (c : Dev nD) :
    V2 m ρ c main_v5 = extractStridedSlice S16384x64 ![0, 0]
      (summed (W1 m ρ c (Proc.devRef .tc main_v0_0)) (W1 m ρ c (Proc.devRef .tc main_v0_1)) (W1 m ρ c (Proc.devRef .tc main_arg1)))
      Facts₀.slices_S16384x66_S16384x64_0_0 := by
  show StableHlo.after hostOps1 (W1 m ρ c) (Proc.devRef .tc main_v5) = _
  after_results
  rfl

/-- Region 1 finds, as its last input array, columns 64:66 of the per-segment sums. -/
theorem V2_v6 (c : Dev nD) :
    V2 m ρ c main_v6 = extractStridedSlice S16384x2 ![0, 64]
      (summed (W1 m ρ c (Proc.devRef .tc main_v0_0)) (W1 m ρ c (Proc.devRef .tc main_v0_1)) (W1 m ρ c (Proc.devRef .tc main_arg1)))
      Facts₀.slices_S16384x66_S16384x2_0_64 := by
  show StableHlo.after hostOps1 (W1 m ρ c) (Proc.devRef .tc main_v6) = _
  after_results
  rfl

/-- Region 1 finds the node layers' weights and biases as launched. -/
theorem V2_arg8 (c : Dev nD) : V2 m ρ c main_arg8 = m ((c : Thread nD τ).loc main_arg8) :=
  ((W3_arr m ρ c 1).trans (((dat1 (V2 m ρ) c).arrAt_in 1 rfl _).trans (A_eq1 (V2 m ρ) c 1))).symm.trans (W3_main_arg8 m ρ c)
theorem V2_arg9 (c : Dev nD) : V2 m ρ c main_arg9 = m ((c : Thread nD τ).loc main_arg9) :=
  ((W3_arr m ρ c 2).trans (((dat1 (V2 m ρ) c).arrAt_in 2 rfl _).trans (A_eq1 (V2 m ρ) c 2))).symm.trans (W3_main_arg9 m ρ c)
theorem V2_arg10 (c : Dev nD) : V2 m ρ c main_arg10 = m ((c : Thread nD τ).loc main_arg10) :=
  ((W3_arr m ρ c 3).trans (((dat1 (V2 m ρ) c).arrAt_in 3 rfl _).trans (A_eq1 (V2 m ρ) c 3))).symm.trans (W3_main_arg10 m ρ c)
theorem V2_arg11 (c : Dev nD) : V2 m ρ c main_arg11 = m ((c : Thread nD τ).loc main_arg11) :=
  ((W3_arr m ρ c 4).trans (((dat1 (V2 m ρ) c).arrAt_in 4 rfl _).trans (A_eq1 (V2 m ρ) c 4))).symm.trans (W3_main_arg11 m ρ c)
theorem V2_arg12 (c : Dev nD) : V2 m ρ c main_arg12 = m ((c : Thread nD τ).loc main_arg12) :=
  ((W3_arr m ρ c 5).trans (((dat1 (V2 m ρ) c).arrAt_in 5 rfl _).trans (A_eq1 (V2 m ρ) c 5))).symm.trans (W3_main_arg12 m ρ c)
theorem V2_arg13 (c : Dev nD) : V2 m ρ c main_arg13 = m ((c : Thread nD τ).loc main_arg13) :=
  ((W3_arr m ρ c 6).trans (((dat1 (V2 m ρ) c).arrAt_in 6 rfl _).trans (A_eq1 (V2 m ρ) c 6))).symm.trans (W3_main_arg13 m ρ c)

/-- THE RESULT BUFFER's last contents: the specification's result of the launch arguments. -/
theorem kernel_value (c : Dev nD) :
    W3 m ρ c (Proc.devRef .tc main_v7)
      = result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) := by
  refine ((W3_arr m ρ c 8).trans (final1_8 (V2 m ρ) c)).trans ?_
  show nodeOut (V2 m ρ c main_v5) (V2 m ρ c main_arg8) (V2 m ρ c main_arg9) (V2 m ρ c main_arg10) (V2 m ρ c main_arg11)
    (V2 m ρ c main_arg12) (V2 m ρ c main_arg13) (V2 m ρ c main_v6) = _
  rw [V2_v5, V2_v6, V2_arg8, V2_arg9, V2_arg10, V2_arg11, V2_arg12, V2_arg13, W1_v0_0, W1_v0_1, W1_arg1]
  exact node_of_summed _ _ _ _ _ _ _ _ _ _ _ _ _ _

end Cert.KernelIdeal.KernelValue

end
-- ==== Proof.RefRows.lean ====
/-
  The reference program's stages, one row at a time.

  Each stage of the reference is read at an index `(e, j)` and identified with the row functions of the
  specification: the edge network's row is `mlp3` of the edge's four features, the barrier stage's row is
  `barrier` of the edge's first two features, and the node network's row is `mlp3` of the segment's
  64 summed numbers (the segment sum itself is carried as an opaque function).  The result is the sum of
  the node network's row and the summed barrier row.
-/
import proofs.«138461_j13503377178879_1_alg».proof.Proof.Spec
import proofs.«138461_j13503377178879_1_alg».proof.Proof.Gen.ReferenceIdeal.Read

noncomputable section

namespace Cert.ReferenceIdeal.RefRows

open Idealize.ShloMosaic Idealize.ShloMosaic.ValueIdx Cert.ReferenceIdeal Cert.ReferenceIdeal.Read Cert.DeepSet

variable (x0 : (⟨S524288x4, .f32⟩ : BufTy).Contents (Elt Ideal))
  (x1 : (⟨S524288, .i32⟩ : BufTy).Contents (Elt Ideal))
  (x2 : (⟨S4x256, .f32⟩ : BufTy).Contents (Elt Ideal))
  (x3 : (⟨S256, .f32⟩ : BufTy).Contents (Elt Ideal))
  (x4 : (⟨S256x256, .f32⟩ : BufTy).Contents (Elt Ideal))
  (x5 : (⟨S256, .f32⟩ : BufTy).Contents (Elt Ideal))
  (x6 : (⟨S256x64, .f32⟩ : BufTy).Contents (Elt Ideal))
  (x7 : (⟨S64, .f32⟩ : BufTy).Contents (Elt Ideal))
  (x8 : (⟨S64x256, .f32⟩ : BufTy).Contents (Elt Ideal))
  (x9 : (⟨S256, .f32⟩ : BufTy).Contents (Elt Ideal))
  (x10 : (⟨S256x256, .f32⟩ : BufTy).Contents (Elt Ideal))
  (x11 : (⟨S256, .f32⟩ : BufTy).Contents (Elt Ideal))
  (x12 : (⟨S256x2, .f32⟩ : BufTy).Contents (Elt Ideal))
  (x13 : (⟨S2, .f32⟩ : BufTy).Contents (Elt Ideal))

/-! ## The edge network: three dense layers on the edge's four features -/

/-- First layer's left operand: row `e` of the features, column `k`. -/
theorem lidx0 (e : Fin 524288) (c : Fin 256) (k : Fin 4) : lidx_main_v0 (ix2 e c) k = ix2 e k := by
  funext a; match a with | ⟨0, _⟩ => rfl | ⟨1, _⟩ => rfl
/-- First layer's right operand: row `k` of the weights, column `c`. -/
theorem ridx0 (e : Fin 524288) (c : Fin 256) (k : Fin 4) : ridx_main_v0 (ix2 e c) k = ix2 k c := by
  funext a; match a with | ⟨0, _⟩ => rfl | ⟨1, _⟩ => rfl
/-- First layer's bias, broadcast along the rows, is read at the column. -/
theorem bidx0 (e : Fin 524288) (c : Fin 256) : idx_main_v1 (idx_main_v2 (ix2 e c)) = ix1 c := by
  funext a; match a with | ⟨0, _⟩ => rfl

theorem lidx5 (e : Fin 524288) (c : Fin 256) (k : Fin 256) : lidx_main_v5 (ix2 e c) k = ix2 e k := by
  funext a; match a with | ⟨0, _⟩ => rfl | ⟨1, _⟩ => rfl
theorem ridx5 (e : Fin 524288) (c : Fin 256) (k : Fin 256) : ridx_main_v5 (ix2 e c) k = ix2 k c := by
  funext a; match a with | ⟨0, _⟩ => rfl | ⟨1, _⟩ => rfl
theorem bidx5 (e : Fin 524288) (c : Fin 256) : idx_main_v6 (idx_main_v7 (ix2 e c)) = ix1 c := by
  funext a; match a with | ⟨0, _⟩ => rfl

theorem lidx10 (e : Fin 524288) (c : Fin 64) (k : Fin 256) : lidx_main_v10 (ix2 e c) k = ix2 e k := by
  funext a; match a with | ⟨0, _⟩ => rfl | ⟨1, _⟩ => rfl
theorem ridx10 (e : Fin 524288) (c : Fin 64) (k : Fin 256) : ridx_main_v10 (ix2 e c) k = ix2 k c := by
  funext a; match a with | ⟨0, _⟩ => rfl | ⟨1, _⟩ => rfl
theorem bidx10 (e : Fin 524288) (c : Fin 64) : idx_main_v11 (idx_main_v12 (ix2 e c)) = ix1 c := by
  funext a; match a with | ⟨0, _⟩ => rfl

/-- The first edge layer with its maximum with zero. -/
theorem edge_l1 (e : Fin 524288) (c : Fin 256) :
    val_main_v4 (F := Ideal) x0 x2 x3 (ix2 e c) = relu (dense (fun k : Fin 4 => x0 (ix2 e k)) x2 x3) c := by
  rw [val_main_v4_apply, val_main_v3_apply, val_main_v0_apply, val_main_v2_apply, val_main_v1_apply,
    val_main_call0_v0_apply, val_main_call0_cst_apply]
  simp only [lidx0, ridx0, bidx0, Ideal.addf_def, Ideal.maximumf_def, Ideal.ofBits_def, relu, dense]

/-- The second edge layer with its maximum with zero. -/
theorem edge_l2 (e : Fin 524288) (c : Fin 256) :
    val_main_v9 (F := Ideal) x0 x2 x3 x4 x5 (ix2 e c)
      = relu (dense (relu (dense (fun k : Fin 4 => x0 (ix2 e k)) x2 x3)) x4 x5) c := by
  rw [val_main_v9_apply, val_main_v8_apply, val_main_v5_apply, val_main_v7_apply, val_main_v6_apply,
    val_main_call1_v0_apply, val_main_call1_cst_apply]
  simp only [lidx5, ridx5, bidx5, edge_l1, Ideal.addf_def, Ideal.maximumf_def, Ideal.ofBits_def]
  rfl

/-- THE EDGE ROW: stage 13 of the reference at `(e, j)` is the three-layer network of edge `e`'s features. -/
theorem edge_row (e : Fin 524288) (j : Fin 64) :
    val_main_v13 (F := Ideal) x0 x2 x3 x4 x5 x6 x7 (ix2 e j)
      = mlp3 (fun k : Fin 4 => x0 (ix2 e k)) x2 x3 x4 x5 x6 x7 j := by
  rw [val_main_v13_apply, val_main_v10_apply, val_main_v12_apply, val_main_v11_apply]
  simp only [lidx10, ridx10, bidx10, edge_l2, Ideal.addf_def]
  rfl

/-! ## The barrier stage: a function of the edge's first two features -/

/-- The slice of columns 0 and 1 reads the features at the same row and column. -/
theorem sidx31 (e : Fin 524288) (q : Fin 2) : idx_main_v31 (ix2 e q) = ix2 e ⟨q.val, by omega⟩ := by
  funext a; match a with | ⟨0, _⟩ => rfl | ⟨1, _⟩ => rfl
/-- The length, one number per row, broadcast along the two columns. -/
theorem sidx33 (e : Fin 524288) (q : Fin 2) : idx_main_v33 (ix2 e q) = ix2 e (⟨0, Nat.one_pos⟩ : Fin 1) := by
  funext a; match a with | ⟨0, _⟩ => rfl | ⟨1, _⟩ => rfl
/-- The length minus the margin, one number per row, broadcast along the two columns. -/
theorem sidx38 (e : Fin 524288) (q : Fin 2) : idx_main_v38 (ix2 e q) = ix2 e (⟨0, Nat.one_pos⟩ : Fin 1) := by
  funext a; match a with | ⟨0, _⟩ => rfl | ⟨1, _⟩ => rfl
/-- The row sums, kept as a column. -/
theorem sidxc2 (e : Fin 524288) (z : Fin 1) : idx_main_call4_v2 (ix2 e z) = ix1 e := by
  funext a; match a with | ⟨0, _⟩ => rfl
/-- The row sum of row `e` runs over that row's two squares. -/
theorem sidxc1 (e : Fin 524288) (k : Fin 2) : idx_main_call4_v1 (ix1 e) k = ix2 e k := by
  funext a; match a with | ⟨0, _⟩ => rfl | ⟨1, _⟩ => rfl

/-- The length of row `e`'s first two features: the square root of the sum of their squares. -/
theorem norm_row (e : Fin 524288) :
    val_main_v32 (F := Ideal) x0 (ix2 e (⟨0, Nat.one_pos⟩ : Fin 1))
      = len2 (fun k : Fin 2 => x0 (ix2 e ⟨k.val, by omega⟩)) := by
  rw [val_main_v32_apply, val_main_call4_v2_apply, sidxc2, val_main_call4_v1_apply, val_main_call4_cst_apply]
  simp only [sidxc1, val_main_call4_v0_apply, val_main_v31_apply, sidx31, Ideal.ofBits_def, Ideal.mulf_def,
    Ideal.hostUnary_sqrt_def, Ideal.ofBits_zero_f32, zero_add, len2]

/-- THE BARRIER ROW: stage 39 of the reference at `(e, q)` is the barrier row of edge `e`'s first two features. -/
theorem barrier_row (e : Fin 524288) (q : Fin 2) :
    val_main_v39 (F := Ideal) x0 (ix2 e q)
      = barrier (fun k : Fin 2 => x0 (ix2 e ⟨k.val, by omega⟩)) q := by
  rw [val_main_v39_apply, val_main_v35_apply, val_main_v34_apply, val_main_v31_apply, val_main_v33_apply,
    val_main_v38_apply, sidx38, val_main_v37_apply, val_main_v36_apply, val_main_cst_0_apply, sidx33, sidx31,
    norm_row]
  simp only [Ideal.hostDivf_def, Ideal.hostNegf_def, Ideal.negf_def, Ideal.subf_def, Ideal.ofBits_def, barrier]

/-! ## The node network: three dense layers on the segment's 64 summed numbers -/

theorem lidx17 (n : Fin 16384) (c : Fin 256) (k : Fin 64) : lidx_main_v17 (ix2 n c) k = ix2 n k := by
  funext a; match a with | ⟨0, _⟩ => rfl | ⟨1, _⟩ => rfl
theorem ridx17 (n : Fin 16384) (c : Fin 256) (k : Fin 64) : ridx_main_v17 (ix2 n c) k = ix2 k c := by
  funext a; match a with | ⟨0, _⟩ => rfl | ⟨1, _⟩ => rfl
theorem bidx17 (n : Fin 16384) (c : Fin 256) : idx_main_v18 (idx_main_v19 (ix2 n c)) = ix1 c := by
  funext a; match a with | ⟨0, _⟩ => rfl

theorem lidx22 (n : Fin 16384) (c : Fin 256) (k : Fin 256) : lidx_main_v22 (ix2 n c) k = ix2 n k := by
  funext a; match a with | ⟨0, _⟩ => rfl | ⟨1, _⟩ => rfl
theorem ridx22 (n : Fin 16384) (c : Fin 256) (k : Fin 256) : ridx_main_v22 (ix2 n c) k = ix2 k c := by
  funext a; match a with | ⟨0, _⟩ => rfl | ⟨1, _⟩ => rfl
theorem bidx22 (n : Fin 16384) (c : Fin 256) : idx_main_v23 (idx_main_v24 (ix2 n c)) = ix1 c := by
  funext a; match a with | ⟨0, _⟩ => rfl

theorem lidx27 (n : Fin 16384) (c : Fin 2) (k : Fin 256) : lidx_main_v27 (ix2 n c) k = ix2 n k := by
  funext a; match a with | ⟨0, _⟩ => rfl | ⟨1, _⟩ => rfl
theorem ridx27 (n : Fin 16384) (c : Fin 2) (k : Fin 256) : ridx_main_v27 (ix2 n c) k = ix2 k c := by
  funext a; match a with | ⟨0, _⟩ => rfl | ⟨1, _⟩ => rfl
theorem bidx27 (n : Fin 16384) (c : Fin 2) : idx_main_v28 (idx_main_v29 (ix2 n c)) = ix1 c := by
  funext a; match a with | ⟨0, _⟩ => rfl

/-- The first node layer with its maximum with zero; the segment sums stay an unopened function. -/
theorem node_l1 (n : Fin 16384) (c : Fin 256) :
    val_main_v21 (F := Ideal) x0 x1 x2 x3 x4 x5 x6 x7 x8 x9 (ix2 n c)
      = relu (dense (fun j : Fin 64 => val_main_v16 (F := Ideal) x0 x1 x2 x3 x4 x5 x6 x7 (ix2 n j)) x8 x9) c := by
  rw [val_main_v21_apply, val_main_v20_apply, val_main_v17_apply, val_main_v19_apply, val_main_v18_apply,
    val_main_call2_v0_apply, val_main_call2_cst_apply]
  generalize val_main_v16 (F := Ideal) x0 x1 x2 x3 x4 x5 x6 x7 = g
  simp only [lidx17, ridx17, bidx17, Ideal.addf_def, Ideal.maximumf_def, Ideal.ofBits_def, relu, dense]

/-- The second node layer with its maximum with zero. -/
theorem node_l2 (n : Fin 16384) (c : Fin 256) :
    val_main_v26 (F := Ideal) x0 x1 x2 x3 x4 x5 x6 x7 x8 x9 x10 x11 (ix2 n c)
      = relu (dense (relu (dense (fun j : Fin 64 => val_main_v16 (F := Ideal) x0 x1 x2 x3 x4 x5 x6 x7 (ix2 n j)) x8 x9))
          x10 x11) c := by
  rw [val_main_v26_apply, val_main_v25_apply, val_main_v22_apply, val_main_v24_apply, val_main_v23_apply,
    val_main_call3_v0_apply, val_main_call3_cst_apply]
  simp only [lidx22, ridx22, bidx22, node_l1, Ideal.addf_def, Ideal.maximumf_def, Ideal.ofBits_def]
  rfl

/-- THE NODE ROW: stage 30 of the reference at `(n, q)` is the three-layer network of segment `n`'s summed row. -/
theorem node_row (n : Fin 16384) (q : Fin 2) :
    val_main_v30 (F := Ideal) x0 x1 x2 x3 x4 x5 x6 x7 x8 x9 x10 x11 x12 x13 (ix2 n q)
      = mlp3 (fun j : Fin 64 => val_main_v16 (F := Ideal) x0 x1 x2 x3 x4 x5 x6 x7 (ix2 n j))
          x8 x9 x10 x11 x12 x13 q := by
  rw [val_main_v30_apply, val_main_v27_apply, val_main_v29_apply, val_main_v28_apply]
  simp only [lidx27, ridx27, bidx27, node_l2, Ideal.addf_def]
  rfl

/-! ## The result: the node network's row plus the summed barrier row -/

/-- THE RESULT SPLIT: the result at an index is stage 30 there plus stage 42 (the scattered barrier rows) there. -/
theorem result_split (i : S16384x2.Idx) :
    val_main_v43 (F := Ideal) x0 x1 x2 x3 x4 x5 x6 x7 x8 x9 x10 x11 x12 x13 i
      = val_main_v30 (F := Ideal) x0 x1 x2 x3 x4 x5 x6 x7 x8 x9 x10 x11 x12 x13 i
        + val_main_v42 (F := Ideal) x0 x1 i := by
  rw [val_main_v43_apply, Ideal.addf_def]

end Cert.ReferenceIdeal.RefRows

end
-- ==== Proof.RefValue.lean ====
/-
  The reference program's result is the specification's `result`.

  The two per-segment sums of the reference are accumulating scatters of rows into zeros: at `(n, j)`
  each is the zero word plus the sum, over the edges whose segment word read signed is `n`, of the
  scattered row's column `j` — the edge rows in one, the barrier rows in the other.  With the node
  layers read one row at a time, the result at `(n, q)` is the specification's.
-/
import proofs.«138461_j13503377178879_1_alg».proof.Proof.RefRows
import proofs.«138461_j13503377178879_1_alg».proof.Proof.LibSegmentSum

noncomputable section

namespace Cert.ReferenceIdeal.RefValue

open Idealize.ShloMosaic Idealize.ShloMosaic.ValueIdx Idealize.ShloMosaic.LibSegmentSum
open Cert.ReferenceIdeal Cert.ReferenceIdeal.Read Cert.ReferenceIdeal.RefRows Cert.DeepSet

variable (x0 : (⟨S524288x4, .f32⟩ : BufTy).Contents (Elt Ideal))
  (x1 : (⟨S524288, .i32⟩ : BufTy).Contents (Elt Ideal))
  (x2 : (⟨S4x256, .f32⟩ : BufTy).Contents (Elt Ideal))
  (x3 : (⟨S256, .f32⟩ : BufTy).Contents (Elt Ideal))
  (x4 : (⟨S256x256, .f32⟩ : BufTy).Contents (Elt Ideal))
  (x5 : (⟨S256, .f32⟩ : BufTy).Contents (Elt Ideal))
  (x6 : (⟨S256x64, .f32⟩ : BufTy).Contents (Elt Ideal))
  (x7 : (⟨S64, .f32⟩ : BufTy).Contents (Elt Ideal))
  (x8 : (⟨S64x256, .f32⟩ : BufTy).Contents (Elt Ideal))
  (x9 : (⟨S256, .f32⟩ : BufTy).Contents (Elt Ideal))
  (x10 : (⟨S256x256, .f32⟩ : BufTy).Contents (Elt Ideal))
  (x11 : (⟨S256, .f32⟩ : BufTy).Contents (Elt Ideal))
  (x12 : (⟨S256x2, .f32⟩ : BufTy).Contents (Elt Ideal))
  (x13 : (⟨S2, .f32⟩ : BufTy).Contents (Elt Ideal))

/-- The segment words broadcast to a column, read at row `e`: the word of row `e`. -/
theorem seg15 (e : Fin 524288) : val_main_v15 (F := Ideal) x1 (ix2 e (0 : Fin 1)) = x1 (ix1 e) := by
  rw [val_main_v15_apply]
  exact congrArg x1 (funext fun a => by match a with | ⟨0, _⟩ => rfl)

theorem seg41 (e : Fin 524288) : val_main_v41 (F := Ideal) x1 (ix2 e (0 : Fin 1)) = x1 (ix1 e) := by
  rw [val_main_v41_apply]
  exact congrArg x1 (funext fun a => by match a with | ⟨0, _⟩ => rfl)

/-- The summed edge rows: the zero word plus the segment's sum of the edge rows. -/
theorem seg_sum_edge (n : Fin 16384) (j : Fin 64) :
    val_main_v16 (F := Ideal) x0 x1 x2 x3 x4 x5 x6 x7 (ix2 n j)
      = zeroW + segSum (segOf x1) (edgeRows x0 x2 x3 x4 x5 x6 x7) n.val j := by
  unfold val_main_v16
  refine (scatterAdd_rows_apply (N := 16384) (C := 64) (E := 524288) scatter_S16384x64_S524288x1_S524288x64_1_0_0_1 rfl rfl rfl rfl
    (val_main_v14 (F := Ideal)) (val_main_v15 (F := Ideal) x1) (val_main_v13 (F := Ideal) x0 x2 x3 x4 x5 x6 x7) n j).trans ?_
  rw [val_main_v14_apply, val_main_cst_apply]
  unfold segSum
  refine congrArg₂ (· + ·) rfl ?_
  refine Finset.sum_congr (Finset.filter_congr fun e _ => ?_) fun e _ => ?_
  · rw [seg15]; exact Iff.rfl
  · exact edge_row x0 x2 x3 x4 x5 x6 x7 e j

/-- The summed barrier rows: the zero word plus the segment's sum of the barrier rows. -/
theorem seg_sum_barrier (n : Fin 16384) (q : Fin 2) :
    val_main_v42 (F := Ideal) x0 x1 (ix2 n q) = zeroW + segSum (segOf x1) (barrierRows x0) n.val q := by
  unfold val_main_v42
  refine (scatterAdd_rows_apply (N := 16384) (C := 2) (E := 524288) scatter_S16384x2_S524288x1_S524288x2_1_0_0_1 rfl rfl rfl rfl
    (val_main_v40 (F := Ideal)) (val_main_v41 (F := Ideal) x1) (val_main_v39 (F := Ideal) x0) n q).trans ?_
  rw [val_main_v40_apply, val_main_cst_1_apply]
  unfold segSum
  refine congrArg₂ (· + ·) rfl ?_
  refine Finset.sum_congr (Finset.filter_congr fun e _ => ?_) fun e _ => ?_
  · rw [seg41]; exact Iff.rfl
  · exact barrier_row x0 e q

/-- THE REFERENCE'S RESULT, as one function of its arguments: the specification's. -/
theorem ref_eq :
    val_main_v43 (F := Ideal) x0 x1 x2 x3 x4 x5 x6 x7 x8 x9 x10 x11 x12 x13
      = result x0 x1 x2 x3 x4 x5 x6 x7 x8 x9 x10 x11 x12 x13 := by
  funext i
  obtain ⟨n, q, rfl⟩ : ∃ (n : Fin 16384) (q : Fin 2), i = ix2 n q := ⟨i 0, i 1, eq_ix2 i⟩
  rw [result_split, node_row]
  unfold result
  rw [ofRows_ix2]
  refine congrArg₂ (· + ·) ?_ ?_
  · exact congrArg (fun f => mlp3 f x8 x9 x10 x11 x12 x13 q) (funext fun j => seg_sum_edge x0 x1 x2 x3 x4 x5 x6 x7 n j)
  · exact seg_sum_barrier x0 x1 n q

end Cert.ReferenceIdeal.RefValue

end
-- ==== Proof.lean ====
/-
  Two programs compute, per segment `n` of a list of edges, a row of two numbers: three dense layers
  (a maximum with zero after the first two) on the zero word plus the sum of the segment's edge rows —
  each edge row itself three such layers on the edge's four features —, plus the zero word plus the sum
  of the segment's barrier rows `-(p / |p|) / (|p| - c)`, `p` the edge's first two features.

  The kernel program computes the edge rows and barrier rows block by block in a first region, sums
  them per segment with ONE accumulating scatter of the 64 + 2 columns laid side by side, and runs the node
  layers block by block in a second region.  The reference computes everything on whole arrays, with one
  scatter for the edge rows and one for the barrier rows.  Over the extended reals both end at the
  specification's `result` of the arguments (Spec.lean): rows are independent in every dense layer,
  a scatter of rows acts column by column, format changes are the identity, and `0 - x = -x`.  No law
  used needs finiteness, so the precondition is never opened.

  The frames of the two kernel programs are the generated ones; the reference's frame is its generated
  run with the result dropped; the idealization rewrote nothing.
-/
import proofs.«138461_j13503377178879_1_alg».proof.Defs
import proofs.«138461_j13503377178879_1_alg».proof.Proof.Gen.Kernel
import proofs.«138461_j13503377178879_1_alg».proof.Proof.Gen.Kernel.Skeleton
import proofs.«138461_j13503377178879_1_alg».proof.Proof.Gen.Kernel.Launch
import proofs.«138461_j13503377178879_1_alg».proof.Proof.Gen.Kernel.Points
import proofs.«138461_j13503377178879_1_alg».proof.Proof.Gen.Kernel.Frame
import proofs.«138461_j13503377178879_1_alg».proof.Proof.Gen.KernelIdeal
import proofs.«138461_j13503377178879_1_alg».proof.Proof.Gen.KernelIdeal.Skeleton
import proofs.«138461_j13503377178879_1_alg».proof.Proof.Gen.KernelIdeal.Launch
import proofs.«138461_j13503377178879_1_alg».proof.Proof.Gen.KernelIdeal.Points
import proofs.«138461_j13503377178879_1_alg».proof.Proof.Gen.KernelIdeal.Frame
import proofs.«138461_j13503377178879_1_alg».proof.Proof.Gen.ReferenceIdeal
import proofs.«138461_j13503377178879_1_alg».proof.Proof.Gen.Pre_finite_inputs
import proofs.«138461_j13503377178879_1_alg».proof.Proof.Gen.ReferenceIdeal.Run
import proofs.«138461_j13503377178879_1_alg».proof.Proof.Gen.ReferenceIdeal.Read
import Idealize.ShloMosaic.Adequacy
import Idealize.ShloMosaic.Init

import proofs.«138461_j13503377178879_1_alg».proof.Proof.KernelValue
import proofs.«138461_j13503377178879_1_alg».proof.Proof.RefValue

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's result of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.DeepSet.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KernelValue.kernel_value m ρ c), (h c).2⟩)
      (Cert.KernelIdeal.RunValue.run_value m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13⟩ := hagree c
    rw [(h c).1, Cert.ReferenceIdeal.Read.val_main_v43_eq, Cert.ReferenceIdeal.RefValue.ref_eq,
      e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
